-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x4096 : Shape := ⟨2, ![8192, 4096]⟩
abbrev S8192x8192 : Shape := ⟨2, ![8192, 8192]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S4096 : S_.BroadcastsInDim S4096 (![] : Fin 0 → Fin S4096.rank)
  reducesTo_S4096_S_d0 : S4096.ReducesTo [0] S_
  reducesTo_S_S_d : S_.ReducesTo [] S_

variable [Facts]

def fn_part1 {F : FTy → Type} [FloatOps F] (main_arg6 : FVec F S_ .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S_ .f32 := Host.absf main_arg6
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : IVec S8192 32) (main_arg1 : IVec S8192 32) (main_arg2 : FVec F S8192x4096 .f32) (main_arg3 : FVec F S8192x8192 .f32) (main_arg4 : FVec F S8192 .f32) (main_arg5 : FVec F S4096 .f32) (main_arg6 : FVec F S_ .f32) : IVec S_ 1 :=
  let main_v0 : FVec F S8192x4096 .f32 := Host.absf main_arg2
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x8192 .f32 := Host.absf main_arg3
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg4
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg6 main_v13 main_v16
-- ==== Kernel.lean ====
abbrev S8192 : Shape := ⟨1, ![8192]⟩
abbrev S8192x4096 : Shape := ⟨2, ![8192, 4096]⟩
abbrev S8192x8192 : Shape := ⟨2, ![8192, 8192]⟩
abbrev S4096 : Shape := ⟨1, ![4096]⟩
abbrev S_ : Shape := ⟨0, ![]⟩
abbrev S8192x1 : Shape := ⟨2, ![8192, 1]⟩
abbrev S512x4096 : Shape := ⟨2, ![512, 4096]⟩
abbrev S512x1 : Shape := ⟨2, ![512, 1]⟩
abbrev S512 : Shape := ⟨1, ![512]⟩
abbrev S512x1024 : Shape := ⟨2, ![512, 1024]⟩
abbrev S1024x1024 : Shape := ⟨2, ![1024, 1024]⟩
abbrev S1024x1 : Shape := ⟨2, ![1024, 1]⟩
abbrev S8192x2 : Shape := ⟨2, ![8192, 2]⟩

abbrev nBuf : Space → Nat
  | .hbm => 60
  | .vmem => 13
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192x4096, .f32⟩
  | .hbm, ⟨3, _⟩ => ⟨S8192x8192, .f32⟩
  | .hbm, ⟨4, _⟩ => ⟨S8192, .f32⟩
  | .hbm, ⟨5, _⟩ => ⟨S4096, .f32⟩
  | .hbm, ⟨6, _⟩ => ⟨S_, .f32⟩
  | .hbm, ⟨7, _⟩ => ⟨S8192x1, .f32⟩
  | .hbm, ⟨8, _⟩ => ⟨S8192x4096, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .i32⟩
  | .hbm, ⟨23, _⟩ => ⟨S8192x1, .i32⟩
  | .hbm, ⟨24, _⟩ => ⟨S8192x1, .i32⟩
  | .hbm, ⟨25, _⟩ => ⟨S8192x2, .i32⟩
  | .hbm, ⟨26, _⟩ => ⟨S8192, .f32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .i32⟩
  | .hbm, ⟨34, _⟩ => ⟨S8192x1, .i32⟩
  | .hbm, ⟨35, _⟩ => ⟨S8192, .f32⟩
  | .hbm, ⟨36, _⟩ => ⟨S_, .i32⟩
  | .hbm, ⟨37, _⟩ => ⟨S8192, .i32⟩
  | .hbm, ⟨38, _⟩ => ⟨S8192, .i1⟩
  | .hbm, ⟨39, _⟩ => ⟨S_, .i32⟩
  | .hbm, ⟨40, _⟩ => ⟨S8192, .i32⟩
  | .hbm, ⟨41, _⟩ => ⟨S8192, .i32⟩
  | .hbm, ⟨42, _⟩ => ⟨S8192, .i32⟩
  | .hbm, ⟨43, _⟩ => ⟨S8192x1, .i32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .local _ .vmem, ⟨0, _⟩ => ⟨S512x4096, .f32⟩
  | .local _ .vmem, ⟨1, _⟩ => ⟨S512x4096, .f32⟩
  | .local _ .vmem, ⟨2, _⟩ => ⟨S512x1, .f32⟩
  | .local _ .vmem, ⟨3, _⟩ => ⟨S512x1, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1, .f32⟩
  | .local _ .vmem, ⟨9, _⟩ => ⟨S1024x1, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![16, 4, 8], ![false, false, false]⟩

def k1_cond2 (i : grid1.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  natLt_1_32 : 1 < 32
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  dot_S512x1024_S1024x1024_S512x1024_1_0_0_1_n_n_wf : DotDims.WF S512x1024 S1024x1024 S512x1024 [1] [0] [0] [1] [] []
  gather_S8192x4096_S8192x2_S8192_n_01_n_n_01_1_11_wf : GatherDims.WF S8192x4096 S8192x2 S8192 [] [0, 1] [] [0, 1] [] 1 ![1, 1]
  gather_S8192_S8192x1_S8192_n_0_n_n_0_1_1_wf : GatherDims.WF S8192 S8192x1 S8192 [] [0] [] [0] [] 1 ![1]
  gather_S4096_S8192x1_S8192_n_0_n_n_0_1_1_wf : GatherDims.WF S4096 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x8192.size a
  hwx1_0 : ∀ i : grid1.Coords, EltTy.bits .f32 = 32 ∨ (Rect.block (s := S8192x8192) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x4096.size a
  hwx1_1 : ∀ i : grid1.Coords, EltTy.bits .f32 = 32 ∨ (Rect.block (s := S8192x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x4096.size a
  hwx1_3 : ∀ i : grid1.Coords, EltTy.bits .f32 = 32 ∨ (Rect.block (s := S8192x4096) S512x1024.size (cc1_transform_3 i) (hinb1_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def gather_S8192x4096_S8192x2_S8192_n_01_n_n_01_1_11 : GatherDims S8192x4096 S8192x2 S8192 where
  offsetDims := []
  collapsedSliceDims := [0, 1]
  operandBatchingDims := []
  startIndicesBatchingDims := []
  startIndexMap := [0, 1]
  indexVectorDim := 1
  sliceSizes := ![1, 1]
  wf := gather_S8192x4096_S8192x2_S8192_n_01_n_n_01_1_11_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S4096_S8192x1_S8192_n_0_n_n_0_1_1 : GatherDims S4096 S8192x1 S8192 where
  offsetDims := []
  collapsedSliceDims := [0]
  operandBatchingDims := []
  startIndicesBatchingDims := []
  startIndexMap := [0]
  indexVectorDim := 1
  sliceSizes := ![1]
  wf := gather_S4096_S8192x1_S8192_n_0_n_n_0_1_1_wf

abbrev win0_0 : Pipeline.Window sig grid0 :=
  Pipeline.Window.ofSpec (Memref.whole main_arg2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg3) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192 : Shape := ⟨1, ![8192]⟩
abbrev S8192x4096 : Shape := ⟨2, ![8192, 4096]⟩
abbrev S8192x8192 : Shape := ⟨2, ![8192, 8192]⟩
abbrev S4096 : Shape := ⟨1, ![4096]⟩
abbrev S_ : Shape := ⟨0, ![]⟩
abbrev S8192x1 : Shape := ⟨2, ![8192, 1]⟩

abbrev nBuf : Space → Nat
  | .hbm => 85
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192x4096, .f32⟩
  | .hbm, ⟨3, _⟩ => ⟨S8192x8192, .f32⟩
  | .hbm, ⟨4, _⟩ => ⟨S8192, .f32⟩
  | .hbm, ⟨5, _⟩ => ⟨S4096, .f32⟩
  | .hbm, ⟨6, _⟩ => ⟨S_, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S8192x4096, .i32⟩
  | .hbm, ⟨11, _⟩ => ⟨S_, .i32⟩
  | .hbm, ⟨12, _⟩ => ⟨S8192, .i32⟩
  | .hbm, ⟨13, _⟩ => ⟨S_, .f32⟩
  | .hbm, ⟨14, _⟩ => ⟨S8192, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192x1, .f32⟩
  | .hbm, ⟨28, _⟩ => ⟨S8192x4096, .f32⟩
  | .hbm, ⟨29, _⟩ => ⟨S8192x4096, .f32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S8192x8192, .f32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i32⟩
  | .hbm, ⟨58, _⟩ => ⟨S8192, .i32⟩
  | .hbm, ⟨59, _⟩ => ⟨S8192x1, .i32⟩
  | .hbm, ⟨60, _⟩ => ⟨S8192, .f32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_4 : Ref sig .tc := ⟨.hbm, 30, rfl⟩
abbrev main_v15 : Ref sig .tc := ⟨.hbm, 31, rfl⟩
abbrev main_v16 : Ref sig .tc := ⟨.hbm, 32, rfl⟩
abbrev main_c_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_c_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_c_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_11 : Ref sig .tc := ⟨.hbm, 61, rfl⟩
abbrev main_v39 : Ref sig .tc := ⟨.hbm, 62, rfl⟩
abbrev main_v40 : Ref sig .tc := ⟨.hbm, 63, rfl⟩
abbrev main_c_12 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  natLt_1_32 : 1 < 32
  reducesTo_S8192x4096_S8192_d1 : S8192x4096.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  transposes_S8192x8192_S8192x8192_1_0 : S8192x8192.Transposes [1, 0] S8192x8192
  reducesTo_S8192x8192_S8192_d1 : S8192x8192.ReducesTo [1] S8192
  gather_S8192x8192_S8192x1_S8192x8192_1_0_n_n_0_1_18192_wf : GatherDims.WF S8192x8192 S8192x1 S8192x8192 [1] [0] [] [0] [] 1 ![1, 8192]
  gather_S8192x4096_S8192x1_S8192x8192_0_1_n_n_1_1_81921_wf : GatherDims.WF S8192x4096 S8192x1 S8192x8192 [0] [1] [] [1] [] 1 ![8192, 1]
  gather_S8192_S8192x1_S8192_n_0_n_n_0_1_1_wf : GatherDims.WF S8192 S8192x1 S8192 [] [0] [] [0] [] 1 ![1]
  gather_S4096_S8192x1_S8192_n_0_n_n_0_1_1_wf : GatherDims.WF S4096 S8192x1 S8192 [] [0] [] [0] [] 1 ![1]

variable [Facts₀]

def gather_S8192x8192_S8192x1_S8192x8192_1_0_n_n_0_1_18192 : GatherDims S8192x8192 S8192x1 S8192x8192 where
  offsetDims := [1]
  collapsedSliceDims := [0]
  operandBatchingDims := []
  startIndicesBatchingDims := []
  startIndexMap := [0]
  indexVectorDim := 1
  sliceSizes := ![1, 8192]
  wf := gather_S8192x8192_S8192x1_S8192x8192_1_0_n_n_0_1_18192_wf
def gather_S8192x4096_S8192x1_S8192x8192_0_1_n_n_1_1_81921 : GatherDims S8192x4096 S8192x1 S8192x8192 where
  offsetDims := [0]
  collapsedSliceDims := [1]
  operandBatchingDims := []
  startIndicesBatchingDims := []
  startIndexMap := [1]
  indexVectorDim := 1
  sliceSizes := ![8192, 1]
  wf := gather_S8192x4096_S8192x1_S8192x8192_0_1_n_n_1_1_81921_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def gather_S4096_S8192x1_S8192_n_0_n_n_0_1_1 : GatherDims S4096 S8192x1 S8192 where
  offsetDims := []
  collapsedSliceDims := [0]
  operandBatchingDims := []
  startIndicesBatchingDims := []
  startIndexMap := [0]
  indexVectorDim := 1
  sliceSizes := ![1]
  wf := gather_S4096_S8192x1_S8192_n_0_n_n_0_1_1_wf

class Facts : Prop extends Facts₀ where

variable [Facts]
-- ==== Proof.K.Region0.lean ====
import proofs.«124659_j42116449305198_1_alg».proof.Proof.Gen.Kernel.Launch
import proofs.«124659_j42116449305198_1_alg».proof.Proof.Gen.Kernel.Skeleton
import proofs.«124659_j42116449305198_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
  Region 0 of the program: the row-mean kernel on a grid of 16 points.

  Window 0 reads the rating matrix in blocks of 512 rows (all 4096 columns); window 1 writes one column of 512
  means per point.  At every point the body reads its whole input block, reads and then overwrites its whole
  output block with one payload.  Everything here is stated at a parameter `V`, the contents of the
  buffers when the region is entered, and for any float model `F`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose
    array is `V`'s and whose body leaves the block in place: the window is fetched at every point and never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the rectangle at offset zero of the buffer's own sizes -/

theorem zeros2 : (![0, 0] : Fin 2 → Nat) = fun _ => 0 := funext fun a => by fin_cases a <;> rfl

abbrev r0_0 : Rect S512x4096 := Rect.unit (s := S512x4096) ![0, 0] S512x4096.size inb_S512x4096_S512x4096_0_0
abbrev r0_1 : Rect S512x1 := Rect.unit (s := S512x1) ![0, 0] S512x1.size inb_S512x1_S512x1_0_0

/-! ## What the body leaves in the output window's buffer -/

/-- Window 1's staging buffer after the body, from the input block: its one store as a piece. -/
def out0_1 (x0 : Vec F S512x4096 .f32) : Vec F S512x1 .f32 :=
  View.canon [⟨r0_1, k0_pay1 (View.ld x0 r0_0)⟩]

/-- The store's rectangle is the whole buffer, so it covers it. -/
theorem cover0_1 (p0 : Vec F S512x1 .f32) (y : S512x1.Idx) :
    ∃ pc ∈ ([⟨r0_1, p0⟩] : List (View.Piece (Elt F) S512x1 .f32)), y ∈ pc.1.set :=
  ⟨_, List.mem_singleton_self _, View.mem_set_unit_zero (S := S512x1) zeros2 inb_S512x1_S512x1_0_0 y⟩

/-- One store of the whole block, read through the whole block: the buffer is the payload of the block. -/
theorem out0_1_eq (x0 : Vec F S512x4096 .f32) : out0_1 x0 = k0_pay1 x0 := by
  unfold out0_1
  rw [View.canon_unit_zero (S := S512x1) zeros2 inb_S512x1_S512x1_0_0,
    View.ld_unit_zero (S := S512x4096) zeros2 inb_S512x4096_S512x4096_0_0]

/-! ## The body's triple -/

set_option maxHeartbeats 1000000 in
/-- The kernel body on whole staging memrefs, the input's at contents `x0` and the output's at anything, runs to
    the continuation holding the input's as it was and the output's at `out0_1 x0`.  The body reads the output
    buffer once before it overwrites it; what it reads is not used. -/
theorem sound_kernel0 (c : Dev nD) (E : Set ℕ) (i : grid0.Coords) (arg0 : Memref sig .tc .vmem S512x4096 .f32) (harg0 : arg0.IsWhole) (arg1 : Memref sig .tc .vmem S512x1 .f32) (harg1 : arg1.IsWhole)
    (x0 : Vec F S512x4096 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__row_mean_kernel i arg0 harg0 arg1 harg1) K := by
  simp only [cc0__row_mean_kernel_eq_skeleton]; unfold cc0__row_mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the region on core `c`: the arrays as the region finds them; after the body at point `t`
    the input's buffer at its block and the output's at `out0_1` of the input block; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1Base.lean ====
import proofs.«124659_j42116449305198_1_alg».proof.Proof.Gen.Kernel.Launch
import proofs.«124659_j42116449305198_1_alg».proof.Proof.Gen.Kernel.Skeleton
import proofs.«124659_j42116449305198_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the K-accumulated product with a carried accumulator): what its frame is stated over

Everything here is at a PARAMETER `V`: the TensorCore's buffer contents when the region is entered. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for ANY proof data whose array is
    `V`'s and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The first branch's condition (the last grid coordinate is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition (the last grid coordinate is 7). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last step of an accumulation the output window is idle: the body stores nothing into it, -/
theorem idleAt1_3 : ∀ t : Fin cfg1.N, ¬cond1_1 (grid1.coords t) → cfg1.idle 3 (grid1.coords t) = true := by decide +kernel
/-- and the pipeline does not write its block back. -/
theorem noFlush1_3 : ∀ t : Fin cfg1.N, ¬cond1_1 (grid1.coords t) → (cfg1.win 3).flush t = false := by decide +kernel
/-- At the last step it is live: the body stores the accumulator into it. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S512x1024 .f32 := Memref.whole cc1_scratch0

/-- The region's other scoped buffers (the first region's staging buffers), each at some contents: the body
    never touches them. -/
abbrev rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The class's invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

/-! ## What the accumulator and the output hold after each point -/

/-- THE ACCUMULATION. After the body at position `n`, `.2` is what the accumulator holds: the step's product added to
    zeros at the first step of an accumulation (`n ≡ 0 (mod 8)`), to what the point before left otherwise; `.1` is what
    the output window's current staging buffer holds at the last step of an accumulation (`n ≡ 7`), where the body
    copies the accumulator into it — at the other points the window is idle and its component is never consulted,
    so it carries the accumulator's contents there too. -/
def outsAt1 (c : Dev nD) : (n : ℕ) → n < cfg1.N → Vec F S512x1024 .f32 × Vec F S512x1024 .f32
  | 0, hn => (k1_pay2 (iblk1 V c 0 ⟨0, hn⟩) (iblk1 V c 1 ⟨0, hn⟩) (iblk1 V c 2 ⟨0, hn⟩) k1_pay1,
              k1_pay2 (iblk1 V c 0 ⟨0, hn⟩) (iblk1 V c 1 ⟨0, hn⟩) (iblk1 V c 2 ⟨0, hn⟩) k1_pay1)
  | n + 1, hn =>
    if (n + 1) % 8 = 0 then
      (k1_pay2 (iblk1 V c 0 ⟨n + 1, hn⟩) (iblk1 V c 1 ⟨n + 1, hn⟩) (iblk1 V c 2 ⟨n + 1, hn⟩) k1_pay1,
       k1_pay2 (iblk1 V c 0 ⟨n + 1, hn⟩) (iblk1 V c 1 ⟨n + 1, hn⟩) (iblk1 V c 2 ⟨n + 1, hn⟩) k1_pay1)
    else
      (k1_pay2 (iblk1 V c 0 ⟨n + 1, hn⟩) (iblk1 V c 1 ⟨n + 1, hn⟩) (iblk1 V c 2 ⟨n + 1, hn⟩) (outsAt1 c n (Nat.lt_of_succ_lt hn)).2,
       k1_pay2 (iblk1 V c 0 ⟨n + 1, hn⟩) (iblk1 V c 1 ⟨n + 1, hn⟩) (iblk1 V c 2 ⟨n + 1, hn⟩) (outsAt1 c n (Nat.lt_of_succ_lt hn)).2)

/-- `outsAt1` after the first point, unfolded one step. -/
theorem outsAt1_succ (c : Dev nD) (n : ℕ) (hn : n + 1 < cfg1.N) :
    outsAt1 V c (n + 1) hn =
      if (n + 1) % 8 = 0 then
        (k1_pay2 (iblk1 V c 0 ⟨n + 1, hn⟩) (iblk1 V c 1 ⟨n + 1, hn⟩) (iblk1 V c 2 ⟨n + 1, hn⟩) k1_pay1,
         k1_pay2 (iblk1 V c 0 ⟨n + 1, hn⟩) (iblk1 V c 1 ⟨n + 1, hn⟩) (iblk1 V c 2 ⟨n + 1, hn⟩) k1_pay1)
      else
        (k1_pay2 (iblk1 V c 0 ⟨n + 1, hn⟩) (iblk1 V c 1 ⟨n + 1, hn⟩) (iblk1 V c 2 ⟨n + 1, hn⟩) (outsAt1 V c n (Nat.lt_of_succ_lt hn)).2,
         k1_pay2 (iblk1 V c 0 ⟨n + 1, hn⟩) (iblk1 V c 1 ⟨n + 1, hn⟩) (iblk1 V c 2 ⟨n + 1, hn⟩) (outsAt1 V c n (Nat.lt_of_succ_lt hn)).2) := by
  rw [outsAt1]

/-- At the first step of an accumulation the accumulator holds the step's product added to zeros. -/
theorem scratch_first (c : Dev nD) (t : Fin cfg1.N) (h : t.val % 8 = 0) :
    (outsAt1 V c t.val t.isLt).2 = k1_pay2 (iblk1 V c 0 t) (iblk1 V c 1 t) (iblk1 V c 2 t) k1_pay1 := by
  obtain ⟨n, hn⟩ := t
  cases n with
  | zero => rfl
  | succ n =>
    have h' : (n + 1) % 8 = 0 := h
    rw [outsAt1_succ, if_pos h']

/-- At a later step it holds the step's product added to what the point before left. -/
theorem scratch_next (c : Dev nD) (t : Fin cfg1.N) (h : t.val % 8 ≠ 0) (hp : t.val - 1 < cfg1.N) :
    (outsAt1 V c t.val t.isLt).2 = k1_pay2 (iblk1 V c 0 t) (iblk1 V c 1 t) (iblk1 V c 2 t) (outsAt1 V c (t.val - 1) hp).2 := by
  obtain ⟨n, hn⟩ := t
  cases n with
  | zero => exact absurd (Nat.zero_mod _) h
  | succ n =>
    have h' : ¬(n + 1) % 8 = 0 := h
    show (outsAt1 V c (n + 1) hn).2 = k1_pay2 (iblk1 V c 0 ⟨n + 1, hn⟩) (iblk1 V c 1 ⟨n + 1, hn⟩) (iblk1 V c 2 ⟨n + 1, hn⟩) (outsAt1 V c n (Nat.lt_of_succ_lt hn)).2
    rw [outsAt1_succ, if_neg h']

/-- The output's component is the accumulator's (consulted at the last step of an accumulation only). -/
theorem out_eq_scratch (c : Dev nD) (t : Fin cfg1.N) : (outsAt1 V c t.val t.isLt).1 = (outsAt1 V c t.val t.isLt).2 := by
  obtain ⟨n, hn⟩ := t
  cases n with
  | zero => rfl
  | succ n => rw [outsAt1_succ]; split <;> rfl

/-- At the last step of an accumulation the output's staging buffer holds what the accumulator holds. -/
theorem out_last (c : Dev nD) (t : Fin cfg1.N) (h : t.val % 8 = 7) : (outsAt1 V c t.val t.isLt).1 = (outsAt1 V c t.val t.isLt).2 :=
  out_eq_scratch V c t

/-! ## The invariant that carries the accumulator -/

/-- The region invariant before position `n`: before the first point the class's (every scoped buffer at anything);
    afterwards the same with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body
    at point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.Kernel.Hand

end
-- ==== Proof.K.Region1RunA.lean ====
import proofs.«124659_j42116449305198_1_alg».proof.Proof.K.Region1Base

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the FIRST step of an accumulation (first branch taken, second not), on whole memrefs — the inputs'
    at their contents, the idle output's at contents handed back untouched, the accumulator at anything —: it runs to
    the continuation holding the accumulator at the step's product added to zeros (the zeros it stored are what it
    reads back: one covering store). -/
theorem kernelRun1_A (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x1024 .f32) (x1 : Vec F S1024x1024 .f32) (x2 : Vec F S1024x1 .f32) (xi3 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (k1_pay2 x0 x1 x2 k1_pay1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS0
  ipureintro
  have hz2 : (![0, 0] : Fin 2 → ℕ) = fun _ => 0 := by funext a; fin_cases a <;> rfl
  have e0 : View.readAt (Elt F) arg3.view (Rect.unit ![0, 0] S512x1024.size inb_S512x1024_S512x1024_0_0).toLoadRect (harg3.unread x0) = x0 := by
    show View.ld (View.read (Elt F) arg3.view (harg3.unread x0)) (Rect.unit ![0, 0] S512x1024.size inb_S512x1024_S512x1024_0_0) = x0
    rw [hf0]; exact View.ld_unit_zero hz2 _ x0
  have e1 : View.readAt (Elt F) arg4.view (Rect.unit ![0, 0] S1024x1024.size inb_S1024x1024_S1024x1024_0_0).toLoadRect (harg4.unread x1) = x1 := by
    show View.ld (View.read (Elt F) arg4.view (harg4.unread x1)) (Rect.unit ![0, 0] S1024x1024.size inb_S1024x1024_S1024x1024_0_0) = x1
    rw [hf1]; exact View.ld_unit_zero hz2 _ x1
  have e2 : View.readAt (Elt F) arg5.view (Rect.unit ![0, 0] S1024x1.size inb_S1024x1_S1024x1_0_0).toLoadRect (harg5.unread x2) = x2 := by
    show View.ld (View.read (Elt F) arg5.view (harg5.unread x2)) (Rect.unit ![0, 0] S1024x1.size inb_S1024x1_S1024x1_0_0) = x2
    rw [hf2]; exact View.ld_unit_zero hz2 _ x2
  rw [View.read_writes_eq_canon _ _ _ (fun y => ⟨_, List.mem_cons_self, View.mem_set_unit_zero hz2 inb_S512x1024_S512x1024_0_0 y⟩)]
  rw [View.canon_cons_unit_zero hz2, e0, e1, e2]
  sl_unfold_run_names
  rw [View.readCov_unit_zero _ hz2]

end Cert.Kernel.Hand

end
-- ==== Proof.K.Region1RunB.lean ====
import proofs.«124659_j42116449305198_1_alg».proof.Proof.K.Region1Base

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE step of an accumulation (neither branch taken), on whole memrefs — the inputs' at their
    contents, the idle output's handed back untouched, the accumulator at what the point before left —: it runs to the
    continuation holding the accumulator at the step's product added to that. -/
theorem kernelRun1_B (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x1024 .f32) (x1 : Vec F S1024x1024 .f32) (x2 : Vec F S1024x1 .f32) (xs0 : Vec F S512x1024 .f32) (xi3 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (k1_pay2 x0 x1 x2 xs0)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS0
  ipureintro
  have hz2 : (![0, 0] : Fin 2 → ℕ) = fun _ => 0 := by funext a; fin_cases a <;> rfl
  have e0 : View.readAt (Elt F) arg3.view (Rect.unit ![0, 0] S512x1024.size inb_S512x1024_S512x1024_0_0).toLoadRect (harg3.unread x0) = x0 := by
    show View.ld (View.read (Elt F) arg3.view (harg3.unread x0)) (Rect.unit ![0, 0] S512x1024.size inb_S512x1024_S512x1024_0_0) = x0
    rw [hf0]; exact View.ld_unit_zero hz2 _ x0
  have e1 : View.readAt (Elt F) arg4.view (Rect.unit ![0, 0] S1024x1024.size inb_S1024x1024_S1024x1024_0_0).toLoadRect (harg4.unread x1) = x1 := by
    show View.ld (View.read (Elt F) arg4.view (harg4.unread x1)) (Rect.unit ![0, 0] S1024x1024.size inb_S1024x1024_S1024x1024_0_0) = x1
    rw [hf1]; exact View.ld_unit_zero hz2 _ x1
  have e2 : View.readAt (Elt F) arg5.view (Rect.unit ![0, 0] S1024x1.size inb_S1024x1_S1024x1_0_0).toLoadRect (harg5.unread x2) = x2 := by
    show View.ld (View.read (Elt F) arg5.view (harg5.unread x2)) (Rect.unit ![0, 0] S1024x1.size inb_S1024x1_S1024x1_0_0) = x2
    rw [hf2]; exact View.ld_unit_zero hz2 _ x2
  have e3 : View.readAt (Elt F) arg7.view (Rect.unit ![0, 0] S512x1024.size inb_S512x1024_S512x1024_0_0).toLoadRect (harg7.unread xs0) = xs0 := by
    show View.ld (View.read (Elt F) arg7.view (harg7.unread xs0)) (Rect.unit ![0, 0] S512x1024.size inb_S512x1024_S512x1024_0_0) = xs0
    rw [hfs0]; exact View.ld_unit_zero hz2 _ xs0
  rw [View.read_writes_eq_canon _ _ _ (fun y => ⟨_, List.mem_cons_self, View.mem_set_unit_zero hz2 inb_S512x1024_S512x1024_0_0 y⟩)]
  rw [View.canon_cons_unit_zero hz2, e0, e1, e2, e3]

end Cert.Kernel.Hand

end
-- ==== Proof.K.Region1RunC.lean ====
import proofs.«124659_j42116449305198_1_alg».proof.Proof.K.Region1Base

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the LAST step of an accumulation (first branch not taken, second taken), on whole memrefs — the
    inputs' at their contents, the output's at anything, the accumulator at what the point before left —: it runs to
    the continuation holding the accumulator at the step's product added to that, and the output's buffer at the same
    (the copy reads back the one covering store). -/
theorem kernelRun1_C (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x1024 .f32) (x1 : Vec F S1024x1024 .f32) (x2 : Vec F S1024x1 .f32) (xs0 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2 ∗ owns (c : Thread nD τ) arg6 fullShare (k1_pay2 x0 x1 x2 xs0) ∗ owns (c : Thread nD τ) arg7 fullShare (k1_pay2 x0 x1 x2 xs0)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  have hz2 : (![0, 0] : Fin 2 → ℕ) = fun _ => 0 := by funext a; fin_cases a <;> rfl
  have e0 : View.readAt (Elt F) arg3.view (Rect.unit ![0, 0] S512x1024.size inb_S512x1024_S512x1024_0_0).toLoadRect (harg3.unread x0) = x0 := by
    show View.ld (View.read (Elt F) arg3.view (harg3.unread x0)) (Rect.unit ![0, 0] S512x1024.size inb_S512x1024_S512x1024_0_0) = x0
    rw [hf0]; exact View.ld_unit_zero hz2 _ x0
  have e1 : View.readAt (Elt F) arg4.view (Rect.unit ![0, 0] S1024x1024.size inb_S1024x1024_S1024x1024_0_0).toLoadRect (harg4.unread x1) = x1 := by
    show View.ld (View.read (Elt F) arg4.view (harg4.unread x1)) (Rect.unit ![0, 0] S1024x1024.size inb_S1024x1024_S1024x1024_0_0) = x1
    rw [hf1]; exact View.ld_unit_zero hz2 _ x1
  have e2 : View.readAt (Elt F) arg5.view (Rect.unit ![0, 0] S1024x1.size inb_S1024x1_S1024x1_0_0).toLoadRect (harg5.unread x2) = x2 := by
    show View.ld (View.read (Elt F) arg5.view (harg5.unread x2)) (Rect.unit ![0, 0] S1024x1.size inb_S1024x1_S1024x1_0_0) = x2
    rw [hf2]; exact View.ld_unit_zero hz2 _ x2
  have e3 : View.readAt (Elt F) arg7.view (Rect.unit ![0, 0] S512x1024.size inb_S512x1024_S512x1024_0_0).toLoadRect (harg7.unread xs0) = xs0 := by
    show View.ld (View.read (Elt F) arg7.view (harg7.unread xs0)) (Rect.unit ![0, 0] S512x1024.size inb_S512x1024_S512x1024_0_0) = xs0
    rw [hfs0]; exact View.ld_unit_zero hz2 _ xs0
  isplitl [H3]
  · iexists _; isplitr
    swap; · iexact H3
    ipureintro
    rw [View.read_writes_eq_canon _ _ _ (fun y => ⟨_, List.mem_cons_self, View.mem_set_unit_zero hz2 inb_S512x1024_S512x1024_0_0 y⟩)]
    rw [View.canon_cons_unit_zero hz2]
    sl_unfold_run_names
    rw [View.readCov_unit_zero _ hz2, e0, e1, e2, e3]
  iexists _; isplitr
  swap; · iexact HS0
  ipureintro
  sl_unfold_run_names
  rw [View.read_writes_eq_canon _ _ _ (fun y => ⟨_, List.mem_cons_self, View.mem_set_unit_zero hz2 inb_S512x1024_S512x1024_0_0 y⟩)]
  rw [View.canon_cons_unit_zero hz2, e0, e1, e2, e3]

end Cert.Kernel.Hand

end
-- ==== Proof.K.Region1.lean ====
import proofs.«124659_j42116449305198_1_alg».proof.Proof.K.Region1RunA
import proofs.«124659_j42116449305198_1_alg».proof.Proof.K.Region1RunB
import proofs.«124659_j42116449305198_1_alg».proof.Proof.K.Region1RunC

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's frame half: the body obligation and the invariant's two ends -/

section Region1
variable (V : (c : Dev nD) → (b : Ref sig .tc) → Buf (Elt F) ((c : Thread nD τ).loc b))

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's position in its accumulation
    (`t.val % 8`) says which of the three cases it is in, and that case's run applies; the invariant hands the body
    the accumulator at what the point before left (at anything at the very first point) and takes it back at this
    point's contents; the region's other scoped buffers and the generator register pass through; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    have hn1 : ¬cond1_1 (grid1.coords t) := fun h => h1 ((hcond1_1 t).mp h)
    rw [Dat.leavesExact_idle (dat1 V c) 3 t (idleAt1_3 t hn1) (noFlush1_3 t hn1)]
    rw [scratch_first V c t h0]
    by_cases hz : t.val = 0
    · rw [PhiS1_castSucc V c t, PhiS1_zero V c _ _ hz, PhiA1_eq]
      iintro ⟨⟨⟨Ha, Hb, Hc, Hd, HS0⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) hn1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          iexact HS0
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) hn1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          iexact HS0
        iexact Hg
      isplitl [Ho]; · iexact Ho
      isplitl [H0]; · iexact H0
      isplitl [H1]; · iexact H1
      isplitl [H2]; · iexact H2
      iexists _; iexact H3
  · have hn0 : ¬cond1_0 (grid1.coords t) := fun h => h0 ((hcond1_0 t).mp h)
    have hz : t.val ≠ 0 := fun hz => h0 (by rw [hz])
    have hp : t.val - 1 < cfg1.N := Nat.lt_of_le_of_lt (Nat.sub_le _ _) t.isLt
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, out_eq_scratch V c t]
      rw [scratch_next V c t h0 hp]
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply (kernelRun1_C c (grid1.coords t) _ _ _ _ _ _ _ _ _ _ hn0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          iexact HS0
        iexact Hg
      isplitl [Ho]; · iexact Ho
      isplitl [H0]; · iexact H0
      isplitl [H1]; · iexact H1
      isplitl [H2]; · iexact H2
      iexact H3
    · have hn1 : ¬cond1_1 (grid1.coords t) := fun h => h1 ((hcond1_1 t).mp h)
      rw [Dat.leavesExact_idle (dat1 V c) 3 t (idleAt1_3 t hn1) (noFlush1_3 t hn1)]
      rw [scratch_next V c t h0 hp]
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply (kernelRun1_B c (grid1.coords t) _ _ _ _ _ _ _ _ _ _ hn0 hn1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          iexact HS0
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end Region1

end Cert.Kernel.Hand

end
-- ==== Proof.K.Run.lean ====
/-
  The whole program as a chain of three segments — the row-mean region, the matrix-product region, the host
  operations that gather and squash the scores — run from the launch to the return.

  Between two segments a core holds every buffer that outlives a region at known contents: at launch the memory it was
  given; after a region the same, but for the region's output array, which holds what the write-backs of its blocks
  leave; after the host operations their fold over what the second region left. Each region enters from the contents
  before it and leaves at the contents after it, and the run ends with every such buffer READ BACK at the last
  contents: the frame (an argument is never written, so it reads back as launched) and the value of the result are
  both instances of that one post.
-/
import proofs.«124659_j42116449305198_1_alg».proof.Proof.Gen.Kernel.Regions
import proofs.«124659_j42116449305198_1_alg».proof.Proof.K.Region0
import proofs.«124659_j42116449305198_1_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A core's buffers at launch. -/
abbrev W0 : Dev nD → Valuation τ sig (Elt F) := fun c b => m ((c : Dev nD), b)
/-- The same read at the TensorCore's references: what the first region finds. -/
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second region finds. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- What the host operations find. -/
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations: their fold over what the second region left. -/
abbrev W3 : Dev nD → Valuation τ sig (Elt F) := fun c => StableHlo.after hostOps2 (W2 m c)

/-! ## The proof data family and the thread state -/

/-- No pipeline has a prefetched table. -/
abbrev adm : (p : Fin 2) → (pcfgs (F := F) p).Adm := fun p => (cfgs p).toPCfg_adm
/-- Each pipeline's proof data at the contents its region finds. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A buffer that outlives the regions is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every such buffer at the last contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at the contents before it, left with them at the
    contents after it. Its windows' arrays are split out of the unscoped buffers on entry and put back, at what the
    write-backs leave, on exit; the generator register passes through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its windows' arrays are split out of the unscoped buffers on entry and put back, at what the
    write-backs leave, on exit; the generator register passes through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (V1 m) c)
  hout c := by
    rw [Pipeline.ownSems0_none]
    exact (hout1 (V1 m) c).trans
      (show (Pipeline.ΦA spec1 c : sProp 𝕄) ⊢ iprop((∃ r, prngReg c r) ∗ BI.emp
          ∗ Pipeline.scopedRest (Pipeline.pin (pcfgs (F := F)) adm 1).spec c) from by
        unfold Pipeline.ΦA
        iintro ⟨Hr, Hp⟩
        isplitl [Hp]; · iexact Hp
        isplitr; · iempintro
        iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The three segments in order. -/
abbrev segs : List (Pipeline.Seg (pcfgs (F := F)) adm (pdats m) () defs₀ 𝒱₀ L lv) :=
  [ .region (reg0 m),
    .region (reg1 m),
    .host (hseg hostOps2 hostOps2_sub hostOps2_fresh (W2 m)) ]
/-- The program IS the run of the segments. -/
theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each buffer that outlives the regions holds the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      show iprop(StableHlo.held (c : Thread nD τ) (Pipeline.ucRefs τ sig) (W3 m c) ∗ R c)
        ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched

No host operation writes an argument, and a region only reads one (through an input window, whose array the pipeline
leaves as it found it) or does not touch it: the last contents at an argument's buffer walk back to the launch memory. -/

/-- The host operations write none of the buffers outside their own results. -/
theorem W3_of (c : Dev nD) (r : Ref sig .tc) (h : r ∉ hostOps2_W) : W3 m c r = W2 m c r :=
  StableHlo.after_of_writes_sub hostOps2 _ hostOps2_writes h
theorem W3_main_arg0 (c : Dev nD) : W3 m c (Proc.devRef .tc main_arg0) = m ((c : Thread nD τ).loc main_arg0) :=
  (W3_of m c main_arg0 (by decide)).trans <| (W2_of_ne m c main_arg0 (by decide)).trans <| (W1_of_ne m c main_arg0 (by decide)).trans rfl
theorem W3_main_arg1 (c : Dev nD) : W3 m c (Proc.devRef .tc main_arg1) = m ((c : Thread nD τ).loc main_arg1) :=
  (W3_of m c main_arg1 (by decide)).trans <| (W2_of_ne m c main_arg1 (by decide)).trans <| (W1_of_ne m c main_arg1 (by decide)).trans rfl
theorem W3_main_arg4 (c : Dev nD) : W3 m c (Proc.devRef .tc main_arg4) = m ((c : Thread nD τ).loc main_arg4) :=
  (W3_of m c main_arg4 (by decide)).trans <| (W2_of_ne m c main_arg4 (by decide)).trans <| (W1_of_ne m c main_arg4 (by decide)).trans rfl
theorem W3_main_arg5 (c : Dev nD) : W3 m c (Proc.devRef .tc main_arg5) = m ((c : Thread nD τ).loc main_arg5) :=
  (W3_of m c main_arg5 (by decide)).trans <| (W2_of_ne m c main_arg5 (by decide)).trans <| (W1_of_ne m c main_arg5 (by decide)).trans rfl
theorem W3_main_arg6 (c : Dev nD) : W3 m c (Proc.devRef .tc main_arg6) = m ((c : Thread nD τ).loc main_arg6) :=
  (W3_of m c main_arg6 (by decide)).trans <| (W2_of_ne m c main_arg6 (by decide)).trans <| (W1_of_ne m c main_arg6 (by decide)).trans rfl
/-- The rating matrix is an input window of both regions. -/
theorem W1_main_arg2 (c : Dev nD) : W1 m c (Proc.devRef .tc main_arg2) = m ((c : Thread nD τ).loc main_arg2) :=
  (W1_arr m c 0).trans (((dat0 (V0 m) c).arrAt_in 0 rfl _).trans (A_eq0 (V0 m) c 0))
theorem W2_main_arg2 (c : Dev nD) : W2 m c (Proc.devRef .tc main_arg2) = m ((c : Thread nD τ).loc main_arg2) :=
  ((W2_arr m c 1).trans (((dat1 (V1 m) c).arrAt_in 1 rfl _).trans (A_eq1 (V1 m) c 1))).trans (W1_main_arg2 m c)
theorem W3_main_arg2 (c : Dev nD) : W3 m c (Proc.devRef .tc main_arg2) = m ((c : Thread nD τ).loc main_arg2) :=
  (W3_of m c main_arg2 (by decide)).trans (W2_main_arg2 m c)
/-- The similarity matrix is an input window of the second region only. -/
theorem W2_main_arg3 (c : Dev nD) : W2 m c (Proc.devRef .tc main_arg3) = m ((c : Thread nD τ).loc main_arg3) :=
  ((W2_arr m c 0).trans (((dat1 (V1 m) c).arrAt_in 0 rfl _).trans (A_eq1 (V1 m) c 0))).trans ((W1_of_ne m c main_arg3 (by decide)).trans rfl)
theorem W3_main_arg3 (c : Dev nD) : W3 m c (Proc.devRef .tc main_arg3) = m ((c : Thread nD τ).loc main_arg3) :=
  (W3_of m c main_arg3 (by decide)).trans (W2_main_arg3 m c)

/-- The frame: the program runs to the end, nothing faults, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.Kernel.Hand

end
-- ==== Proof.KI.Region0.lean ====
import proofs.«124659_j42116449305198_1_alg».proof.Proof.Gen.KernelIdeal.Launch
import proofs.«124659_j42116449305198_1_alg».proof.Proof.Gen.KernelIdeal.Skeleton
import proofs.«124659_j42116449305198_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
  Region 0 of the program: the row-mean kernel on a grid of 16 points.

  Window 0 reads the rating matrix in blocks of 512 rows (all 4096 columns); window 1 writes one column of 512
  means per point.  At every point the body reads its whole input block, reads and then overwrites its whole
  output block with one payload.  Everything here is stated at a parameter `V`, the contents of the
  buffers when the region is entered, and for any float model `F`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose
    array is `V`'s and whose body leaves the block in place: the window is fetched at every point and never cut. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole, through the rectangle at offset zero of the buffer's own sizes -/

theorem zeros2 : (![0, 0] : Fin 2 → Nat) = fun _ => 0 := funext fun a => by fin_cases a <;> rfl

abbrev r0_0 : Rect S512x4096 := Rect.unit (s := S512x4096) ![0, 0] S512x4096.size inb_S512x4096_S512x4096_0_0
abbrev r0_1 : Rect S512x1 := Rect.unit (s := S512x1) ![0, 0] S512x1.size inb_S512x1_S512x1_0_0

/-! ## What the body leaves in the output window's buffer -/

/-- Window 1's staging buffer after the body, from the input block: its one store as a piece. -/
def out0_1 (x0 : Vec F S512x4096 .f32) : Vec F S512x1 .f32 :=
  View.canon [⟨r0_1, k0_pay1 (View.ld x0 r0_0)⟩]

/-- The store's rectangle is the whole buffer, so it covers it. -/
theorem cover0_1 (p0 : Vec F S512x1 .f32) (y : S512x1.Idx) :
    ∃ pc ∈ ([⟨r0_1, p0⟩] : List (View.Piece (Elt F) S512x1 .f32)), y ∈ pc.1.set :=
  ⟨_, List.mem_singleton_self _, View.mem_set_unit_zero (S := S512x1) zeros2 inb_S512x1_S512x1_0_0 y⟩

/-- One store of the whole block, read through the whole block: the buffer is the payload of the block. -/
theorem out0_1_eq (x0 : Vec F S512x4096 .f32) : out0_1 x0 = k0_pay1 x0 := by
  unfold out0_1
  rw [View.canon_unit_zero (S := S512x1) zeros2 inb_S512x1_S512x1_0_0,
    View.ld_unit_zero (S := S512x4096) zeros2 inb_S512x4096_S512x4096_0_0]

/-! ## The body's triple -/

set_option maxHeartbeats 1000000 in
/-- The kernel body on whole staging memrefs, the input's at contents `x0` and the output's at anything, runs to
    the continuation holding the input's as it was and the output's at `out0_1 x0`.  The body reads the output
    buffer once before it overwrites it; what it reads is not used. -/
theorem sound_kernel0 (c : Dev nD) (E : Set ℕ) (i : grid0.Coords) (arg0 : Memref sig .tc .vmem S512x4096 .f32) (harg0 : arg0.IsWhole) (arg1 : Memref sig .tc .vmem S512x1 .f32) (harg1 : arg1.IsWhole)
    (x0 : Vec F S512x4096 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__row_mean_kernel i arg0 harg0 arg1 harg1) K := by
  simp only [cc0__row_mean_kernel_eq_skeleton]; unfold cc0__row_mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the region on core `c`: the arrays as the region finds them; after the body at point `t`
    the input's buffer at its block and the output's at `out0_1` of the input block; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1Base.lean ====
import proofs.«124659_j42116449305198_1_alg».proof.Proof.Gen.KernelIdeal.Launch
import proofs.«124659_j42116449305198_1_alg».proof.Proof.Gen.KernelIdeal.Skeleton
import proofs.«124659_j42116449305198_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the K-accumulated product with a carried accumulator): what its frame is stated over

Everything here is at a PARAMETER `V`: the TensorCore's buffer contents when the region is entered. -/

section Region1
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for ANY proof data whose array is
    `V`'s and whose body leaves the block in place: the window is fetched at every point, uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The first branch's condition (the last grid coordinate is 0), from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition (the last grid coordinate is 7). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last step of an accumulation the output window is idle: the body stores nothing into it, -/
theorem idleAt1_3 : ∀ t : Fin cfg1.N, ¬cond1_1 (grid1.coords t) → cfg1.idle 3 (grid1.coords t) = true := by decide +kernel
/-- and the pipeline does not write its block back. -/
theorem noFlush1_3 : ∀ t : Fin cfg1.N, ¬cond1_1 (grid1.coords t) → (cfg1.win 3).flush t = false := by decide +kernel
/-- At the last step it is live: the body stores the accumulator into it. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S512x1024 .f32 := Memref.whole cc1_scratch0

/-- The region's other scoped buffers (the first region's staging buffers), each at some contents: the body
    never touches them. -/
abbrev rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- The class's invariant with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1 fullShare d)) ∗ (∃ r, prngReg c r)) := by
  unfold Pipeline.ΦA; rw [scopedRest1_eq]; simp only [scM1, owns_whole]; try rfl

/-! ## What the accumulator and the output hold after each point -/

/-- THE ACCUMULATION. After the body at position `n`, `.2` is what the accumulator holds: the step's product added to
    zeros at the first step of an accumulation (`n ≡ 0 (mod 8)`), to what the point before left otherwise; `.1` is what
    the output window's current staging buffer holds at the last step of an accumulation (`n ≡ 7`), where the body
    copies the accumulator into it — at the other points the window is idle and its component is never consulted,
    so it carries the accumulator's contents there too. -/
def outsAt1 (c : Dev nD) : (n : ℕ) → n < cfg1.N → Vec F S512x1024 .f32 × Vec F S512x1024 .f32
  | 0, hn => (k1_pay2 (iblk1 V c 0 ⟨0, hn⟩) (iblk1 V c 1 ⟨0, hn⟩) (iblk1 V c 2 ⟨0, hn⟩) k1_pay1,
              k1_pay2 (iblk1 V c 0 ⟨0, hn⟩) (iblk1 V c 1 ⟨0, hn⟩) (iblk1 V c 2 ⟨0, hn⟩) k1_pay1)
  | n + 1, hn =>
    if (n + 1) % 8 = 0 then
      (k1_pay2 (iblk1 V c 0 ⟨n + 1, hn⟩) (iblk1 V c 1 ⟨n + 1, hn⟩) (iblk1 V c 2 ⟨n + 1, hn⟩) k1_pay1,
       k1_pay2 (iblk1 V c 0 ⟨n + 1, hn⟩) (iblk1 V c 1 ⟨n + 1, hn⟩) (iblk1 V c 2 ⟨n + 1, hn⟩) k1_pay1)
    else
      (k1_pay2 (iblk1 V c 0 ⟨n + 1, hn⟩) (iblk1 V c 1 ⟨n + 1, hn⟩) (iblk1 V c 2 ⟨n + 1, hn⟩) (outsAt1 c n (Nat.lt_of_succ_lt hn)).2,
       k1_pay2 (iblk1 V c 0 ⟨n + 1, hn⟩) (iblk1 V c 1 ⟨n + 1, hn⟩) (iblk1 V c 2 ⟨n + 1, hn⟩) (outsAt1 c n (Nat.lt_of_succ_lt hn)).2)

/-- `outsAt1` after the first point, unfolded one step. -/
theorem outsAt1_succ (c : Dev nD) (n : ℕ) (hn : n + 1 < cfg1.N) :
    outsAt1 V c (n + 1) hn =
      if (n + 1) % 8 = 0 then
        (k1_pay2 (iblk1 V c 0 ⟨n + 1, hn⟩) (iblk1 V c 1 ⟨n + 1, hn⟩) (iblk1 V c 2 ⟨n + 1, hn⟩) k1_pay1,
         k1_pay2 (iblk1 V c 0 ⟨n + 1, hn⟩) (iblk1 V c 1 ⟨n + 1, hn⟩) (iblk1 V c 2 ⟨n + 1, hn⟩) k1_pay1)
      else
        (k1_pay2 (iblk1 V c 0 ⟨n + 1, hn⟩) (iblk1 V c 1 ⟨n + 1, hn⟩) (iblk1 V c 2 ⟨n + 1, hn⟩) (outsAt1 V c n (Nat.lt_of_succ_lt hn)).2,
         k1_pay2 (iblk1 V c 0 ⟨n + 1, hn⟩) (iblk1 V c 1 ⟨n + 1, hn⟩) (iblk1 V c 2 ⟨n + 1, hn⟩) (outsAt1 V c n (Nat.lt_of_succ_lt hn)).2) := by
  rw [outsAt1]

/-- At the first step of an accumulation the accumulator holds the step's product added to zeros. -/
theorem scratch_first (c : Dev nD) (t : Fin cfg1.N) (h : t.val % 8 = 0) :
    (outsAt1 V c t.val t.isLt).2 = k1_pay2 (iblk1 V c 0 t) (iblk1 V c 1 t) (iblk1 V c 2 t) k1_pay1 := by
  obtain ⟨n, hn⟩ := t
  cases n with
  | zero => rfl
  | succ n =>
    have h' : (n + 1) % 8 = 0 := h
    rw [outsAt1_succ, if_pos h']

/-- At a later step it holds the step's product added to what the point before left. -/
theorem scratch_next (c : Dev nD) (t : Fin cfg1.N) (h : t.val % 8 ≠ 0) (hp : t.val - 1 < cfg1.N) :
    (outsAt1 V c t.val t.isLt).2 = k1_pay2 (iblk1 V c 0 t) (iblk1 V c 1 t) (iblk1 V c 2 t) (outsAt1 V c (t.val - 1) hp).2 := by
  obtain ⟨n, hn⟩ := t
  cases n with
  | zero => exact absurd (Nat.zero_mod _) h
  | succ n =>
    have h' : ¬(n + 1) % 8 = 0 := h
    show (outsAt1 V c (n + 1) hn).2 = k1_pay2 (iblk1 V c 0 ⟨n + 1, hn⟩) (iblk1 V c 1 ⟨n + 1, hn⟩) (iblk1 V c 2 ⟨n + 1, hn⟩) (outsAt1 V c n (Nat.lt_of_succ_lt hn)).2
    rw [outsAt1_succ, if_neg h']

/-- The output's component is the accumulator's (consulted at the last step of an accumulation only). -/
theorem out_eq_scratch (c : Dev nD) (t : Fin cfg1.N) : (outsAt1 V c t.val t.isLt).1 = (outsAt1 V c t.val t.isLt).2 := by
  obtain ⟨n, hn⟩ := t
  cases n with
  | zero => rfl
  | succ n => rw [outsAt1_succ]; split <;> rfl

/-- At the last step of an accumulation the output's staging buffer holds what the accumulator holds. -/
theorem out_last (c : Dev nD) (t : Fin cfg1.N) (h : t.val % 8 = 7) : (outsAt1 V c t.val t.isLt).1 = (outsAt1 V c t.val t.isLt).2 :=
  out_eq_scratch V c t

/-! ## The invariant that carries the accumulator -/

/-- The region invariant before position `n`: before the first point the class's (every scoped buffer at anything);
    afterwards the same with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body
    at point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.KernelIdeal.Hand

end
-- ==== Proof.KI.Region1RunA.lean ====
import proofs.«124659_j42116449305198_1_alg».proof.Proof.KI.Region1Base

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the FIRST step of an accumulation (first branch taken, second not), on whole memrefs — the inputs'
    at their contents, the idle output's at contents handed back untouched, the accumulator at anything —: it runs to
    the continuation holding the accumulator at the step's product added to zeros (the zeros it stored are what it
    reads back: one covering store). -/
theorem kernelRun1_A (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x1024 .f32) (x1 : Vec F S1024x1024 .f32) (x2 : Vec F S1024x1 .f32) (xi3 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (k1_pay2 x0 x1 x2 k1_pay1)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%ds0, %fs0, -, HS0⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS0
  ipureintro
  have hz2 : (![0, 0] : Fin 2 → ℕ) = fun _ => 0 := by funext a; fin_cases a <;> rfl
  have e0 : View.readAt (Elt F) arg3.view (Rect.unit ![0, 0] S512x1024.size inb_S512x1024_S512x1024_0_0).toLoadRect (harg3.unread x0) = x0 := by
    show View.ld (View.read (Elt F) arg3.view (harg3.unread x0)) (Rect.unit ![0, 0] S512x1024.size inb_S512x1024_S512x1024_0_0) = x0
    rw [hf0]; exact View.ld_unit_zero hz2 _ x0
  have e1 : View.readAt (Elt F) arg4.view (Rect.unit ![0, 0] S1024x1024.size inb_S1024x1024_S1024x1024_0_0).toLoadRect (harg4.unread x1) = x1 := by
    show View.ld (View.read (Elt F) arg4.view (harg4.unread x1)) (Rect.unit ![0, 0] S1024x1024.size inb_S1024x1024_S1024x1024_0_0) = x1
    rw [hf1]; exact View.ld_unit_zero hz2 _ x1
  have e2 : View.readAt (Elt F) arg5.view (Rect.unit ![0, 0] S1024x1.size inb_S1024x1_S1024x1_0_0).toLoadRect (harg5.unread x2) = x2 := by
    show View.ld (View.read (Elt F) arg5.view (harg5.unread x2)) (Rect.unit ![0, 0] S1024x1.size inb_S1024x1_S1024x1_0_0) = x2
    rw [hf2]; exact View.ld_unit_zero hz2 _ x2
  rw [View.read_writes_eq_canon _ _ _ (fun y => ⟨_, List.mem_cons_self, View.mem_set_unit_zero hz2 inb_S512x1024_S512x1024_0_0 y⟩)]
  rw [View.canon_cons_unit_zero hz2, e0, e1, e2]
  sl_unfold_run_names
  rw [View.readCov_unit_zero _ hz2]

end Cert.KernelIdeal.Hand

end
-- ==== Proof.KI.Region1RunB.lean ====
import proofs.«124659_j42116449305198_1_alg».proof.Proof.KI.Region1Base

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a MIDDLE step of an accumulation (neither branch taken), on whole memrefs — the inputs' at their
    contents, the idle output's handed back untouched, the accumulator at what the point before left —: it runs to the
    continuation holding the accumulator at the step's product added to that. -/
theorem kernelRun1_B (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x1024 .f32) (x1 : Vec F S1024x1024 .f32) (x2 : Vec F S1024x1 .f32) (xs0 : Vec F S512x1024 .f32) (xi3 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare (k1_pay2 x0 x1 x2 xs0)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr
  swap; · iexact HS0
  ipureintro
  have hz2 : (![0, 0] : Fin 2 → ℕ) = fun _ => 0 := by funext a; fin_cases a <;> rfl
  have e0 : View.readAt (Elt F) arg3.view (Rect.unit ![0, 0] S512x1024.size inb_S512x1024_S512x1024_0_0).toLoadRect (harg3.unread x0) = x0 := by
    show View.ld (View.read (Elt F) arg3.view (harg3.unread x0)) (Rect.unit ![0, 0] S512x1024.size inb_S512x1024_S512x1024_0_0) = x0
    rw [hf0]; exact View.ld_unit_zero hz2 _ x0
  have e1 : View.readAt (Elt F) arg4.view (Rect.unit ![0, 0] S1024x1024.size inb_S1024x1024_S1024x1024_0_0).toLoadRect (harg4.unread x1) = x1 := by
    show View.ld (View.read (Elt F) arg4.view (harg4.unread x1)) (Rect.unit ![0, 0] S1024x1024.size inb_S1024x1024_S1024x1024_0_0) = x1
    rw [hf1]; exact View.ld_unit_zero hz2 _ x1
  have e2 : View.readAt (Elt F) arg5.view (Rect.unit ![0, 0] S1024x1.size inb_S1024x1_S1024x1_0_0).toLoadRect (harg5.unread x2) = x2 := by
    show View.ld (View.read (Elt F) arg5.view (harg5.unread x2)) (Rect.unit ![0, 0] S1024x1.size inb_S1024x1_S1024x1_0_0) = x2
    rw [hf2]; exact View.ld_unit_zero hz2 _ x2
  have e3 : View.readAt (Elt F) arg7.view (Rect.unit ![0, 0] S512x1024.size inb_S512x1024_S512x1024_0_0).toLoadRect (harg7.unread xs0) = xs0 := by
    show View.ld (View.read (Elt F) arg7.view (harg7.unread xs0)) (Rect.unit ![0, 0] S512x1024.size inb_S512x1024_S512x1024_0_0) = xs0
    rw [hfs0]; exact View.ld_unit_zero hz2 _ xs0
  rw [View.read_writes_eq_canon _ _ _ (fun y => ⟨_, List.mem_cons_self, View.mem_set_unit_zero hz2 inb_S512x1024_S512x1024_0_0 y⟩)]
  rw [View.canon_cons_unit_zero hz2, e0, e1, e2, e3]

end Cert.KernelIdeal.Hand

end
-- ==== Proof.KI.Region1RunC.lean ====
import proofs.«124659_j42116449305198_1_alg».proof.Proof.KI.Region1Base

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the LAST step of an accumulation (first branch not taken, second taken), on whole memrefs — the
    inputs' at their contents, the output's at anything, the accumulator at what the point before left —: it runs to
    the continuation holding the accumulator at the step's product added to that, and the output's buffer at the same
    (the copy reads back the one covering store). -/
theorem kernelRun1_C (c : Dev nD) (i : grid1.Coords) (arg3 : Memref sig .tc .vmem S512x1024 .f32) (harg3 : arg3.IsWhole) (arg4 : Memref sig .tc .vmem S1024x1024 .f32) (harg4 : arg4.IsWhole) (arg5 : Memref sig .tc .vmem S1024x1 .f32) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x1024 .f32) (x1 : Vec F S1024x1024 .f32) (x2 : Vec F S1024x1 .f32) (xs0 : Vec F S512x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
        ∗ (iprop(owns (c : Thread nD τ) arg3 fullShare x0 ∗ owns (c : Thread nD τ) arg4 fullShare x1 ∗ owns (c : Thread nD τ) arg5 fullShare x2 ∗ owns (c : Thread nD τ) arg6 fullShare (k1_pay2 x0 x1 x2 xs0) ∗ owns (c : Thread nD τ) arg7 fullShare (k1_pay2 x0 x1 x2 xs0)) -∗ K ⟨⟩))
      ⊢ wp frame (wpE (defs₀ (F := F)) Variants.none c none) E (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, ⟨%fs0, %hfs0, HS0⟩, Hk⟩
  obtain rfl := harg3.eq_unread hf0; obtain rfl := harg4.eq_unread hf1; obtain rfl := harg5.eq_unread hf2; obtain rfl := harg7.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  have hz2 : (![0, 0] : Fin 2 → ℕ) = fun _ => 0 := by funext a; fin_cases a <;> rfl
  have e0 : View.readAt (Elt F) arg3.view (Rect.unit ![0, 0] S512x1024.size inb_S512x1024_S512x1024_0_0).toLoadRect (harg3.unread x0) = x0 := by
    show View.ld (View.read (Elt F) arg3.view (harg3.unread x0)) (Rect.unit ![0, 0] S512x1024.size inb_S512x1024_S512x1024_0_0) = x0
    rw [hf0]; exact View.ld_unit_zero hz2 _ x0
  have e1 : View.readAt (Elt F) arg4.view (Rect.unit ![0, 0] S1024x1024.size inb_S1024x1024_S1024x1024_0_0).toLoadRect (harg4.unread x1) = x1 := by
    show View.ld (View.read (Elt F) arg4.view (harg4.unread x1)) (Rect.unit ![0, 0] S1024x1024.size inb_S1024x1024_S1024x1024_0_0) = x1
    rw [hf1]; exact View.ld_unit_zero hz2 _ x1
  have e2 : View.readAt (Elt F) arg5.view (Rect.unit ![0, 0] S1024x1.size inb_S1024x1_S1024x1_0_0).toLoadRect (harg5.unread x2) = x2 := by
    show View.ld (View.read (Elt F) arg5.view (harg5.unread x2)) (Rect.unit ![0, 0] S1024x1.size inb_S1024x1_S1024x1_0_0) = x2
    rw [hf2]; exact View.ld_unit_zero hz2 _ x2
  have e3 : View.readAt (Elt F) arg7.view (Rect.unit ![0, 0] S512x1024.size inb_S512x1024_S512x1024_0_0).toLoadRect (harg7.unread xs0) = xs0 := by
    show View.ld (View.read (Elt F) arg7.view (harg7.unread xs0)) (Rect.unit ![0, 0] S512x1024.size inb_S512x1024_S512x1024_0_0) = xs0
    rw [hfs0]; exact View.ld_unit_zero hz2 _ xs0
  isplitl [H3]
  · iexists _; isplitr
    swap; · iexact H3
    ipureintro
    rw [View.read_writes_eq_canon _ _ _ (fun y => ⟨_, List.mem_cons_self, View.mem_set_unit_zero hz2 inb_S512x1024_S512x1024_0_0 y⟩)]
    rw [View.canon_cons_unit_zero hz2]
    sl_unfold_run_names
    rw [View.readCov_unit_zero _ hz2, e0, e1, e2, e3]
  iexists _; isplitr
  swap; · iexact HS0
  ipureintro
  sl_unfold_run_names
  rw [View.read_writes_eq_canon _ _ _ (fun y => ⟨_, List.mem_cons_self, View.mem_set_unit_zero hz2 inb_S512x1024_S512x1024_0_0 y⟩)]
  rw [View.canon_cons_unit_zero hz2, e0, e1, e2, e3]

end Cert.KernelIdeal.Hand

end
-- ==== Proof.KI.Region1.lean ====
import proofs.«124659_j42116449305198_1_alg».proof.Proof.KI.Region1RunA
import proofs.«124659_j42116449305198_1_alg».proof.Proof.KI.Region1RunB
import proofs.«124659_j42116449305198_1_alg».proof.Proof.KI.Region1RunC

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1's frame half: the body obligation and the invariant's two ends -/

section Region1
variable (V : (c : Dev nD) → (b : Ref sig .tc) → Buf (Elt F) ((c : Thread nD τ).loc b))

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's position in its accumulation
    (`t.val % 8`) says which of the three cases it is in, and that case's run applies; the invariant hands the body
    the accumulator at what the point before left (at anything at the very first point) and takes it back at this
    point's contents; the region's other scoped buffers and the generator register pass through; the core owes
    nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    have hn1 : ¬cond1_1 (grid1.coords t) := fun h => h1 ((hcond1_1 t).mp h)
    rw [Dat.leavesExact_idle (dat1 V c) 3 t (idleAt1_3 t hn1) (noFlush1_3 t hn1)]
    rw [scratch_first V c t h0]
    by_cases hz : t.val = 0
    · rw [PhiS1_castSucc V c t, PhiS1_zero V c _ _ hz, PhiA1_eq]
      iintro ⟨⟨⟨Ha, Hb, Hc, Hd, HS0⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) hn1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          iexact HS0
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply (kernelRun1_A c (grid1.coords t) _ _ _ _ _ _ _ _ _ _ ((hcond1_0 t).mpr h0) hn1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS0]; · iexists _; iexact HS0
      iintro ⟨H0, H1, H2, H3, HS0⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          iexact HS0
        iexact Hg
      isplitl [Ho]; · iexact Ho
      isplitl [H0]; · iexact H0
      isplitl [H1]; · iexact H1
      isplitl [H2]; · iexact H2
      iexists _; iexact H3
  · have hn0 : ¬cond1_0 (grid1.coords t) := fun h => h0 ((hcond1_0 t).mp h)
    have hz : t.val ≠ 0 := fun hz => h0 (by rw [hz])
    have hp : t.val - 1 < cfg1.N := Nat.lt_of_le_of_lt (Nat.sub_le _ _) t.isLt
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, out_eq_scratch V c t]
      rw [scratch_next V c t h0 hp]
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply (kernelRun1_C c (grid1.coords t) _ _ _ _ _ _ _ _ _ _ hn0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS0]; · iexact HS0
      iintro ⟨H0, H1, H2, H3, HS0⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          iexact HS0
        iexact Hg
      isplitl [Ho]; · iexact Ho
      isplitl [H0]; · iexact H0
      isplitl [H1]; · iexact H1
      isplitl [H2]; · iexact H2
      iexact H3
    · have hn1 : ¬cond1_1 (grid1.coords t) := fun h => h1 ((hcond1_1 t).mp h)
      rw [Dat.leavesExact_idle (dat1 V c) 3 t (idleAt1_3 t hn1) (noFlush1_3 t hn1)]
      rw [scratch_next V c t h0 hp]
      rw [PhiS1_castSucc V c t, PhiS1_pos V c _ _ hz]
      iintro ⟨⟨⟨Ha, Hb, Hc, Hd, HS0⟩, Hg⟩, Ho, ⟨%d0, H0⟩, ⟨%d1, H1⟩, ⟨%d2, H2⟩, ⟨%d3, H3⟩⟩
      iapply (kernelRun1_B c (grid1.coords t) _ _ _ _ _ _ _ _ _ _ hn0 hn1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS0]; · iexact HS0
      iintro ⟨H0, H1, H2, H3, HS0⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          iexact HS0
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 512 := N_1; omega)

end Region1

end Cert.KernelIdeal.Hand

end
-- ==== Proof.KI.Run.lean ====
/-
  The whole program as a chain of three segments — the row-mean region, the matrix-product region, the host
  operations that gather and squash the scores — run from the launch to the return.

  Between two segments a core holds every buffer that outlives a region at known contents: at launch the memory it was
  given; after a region the same, but for the region's output array, which holds what the write-backs of its blocks
  leave; after the host operations their fold over what the second region left. Each region enters from the contents
  before it and leaves at the contents after it, and the run ends with every such buffer READ BACK at the last
  contents: the frame (an argument is never written, so it reads back as launched) and the value of the result are
  both instances of that one post.
-/
import proofs.«124659_j42116449305198_1_alg».proof.Proof.Gen.KernelIdeal.Regions
import proofs.«124659_j42116449305198_1_alg».proof.Proof.KI.Region0
import proofs.«124659_j42116449305198_1_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- A core's buffers at launch. -/
abbrev W0 : Dev nD → Valuation τ sig (Elt F) := fun c b => m ((c : Dev nD), b)
/-- The same read at the TensorCore's references: what the first region finds. -/
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- What the second region finds. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second region: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- What the host operations find. -/
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations: their fold over what the second region left. -/
abbrev W3 : Dev nD → Valuation τ sig (Elt F) := fun c => StableHlo.after hostOps2 (W2 m c)

/-! ## The proof data family and the thread state -/

/-- No pipeline has a prefetched table. -/
abbrev adm : (p : Fin 2) → (pcfgs (F := F) p).Adm := fun p => (cfgs p).toPCfg_adm
/-- Each pipeline's proof data at the contents its region finds. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A buffer that outlives the regions is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every such buffer at the last contents, the generator register at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered with every unscoped buffer at the contents before it, left with them at the
    contents after it. Its windows' arrays are split out of the unscoped buffers on entry and put back, at what the
    write-backs leave, on exit; the generator register passes through the invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with them at the
    contents after it. Its windows' arrays are split out of the unscoped buffers on entry and put back, at what the
    write-backs leave, on exit; the generator register passes through the invariant; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show iprop((∃ r, prngReg c r) ∗ Pipeline.prefHeld (pcfgs (F := F) 1).pre c (fun _ => fullShare) (adm (F := F) 1).1
          ∗ Pipeline.scopedRest (Pipeline.pin (pcfgs (F := F)) adm 1).spec c) ⊢ (Pipeline.ΦA spec1 c : sProp 𝕄) from by
      unfold Pipeline.ΦA
      iintro ⟨Hp, -, Hr⟩
      isplitl [Hr]; · iexact Hr
      iexact Hp).trans (hin1 (V1 m) c)
  hout c := by
    rw [Pipeline.ownSems0_none]
    exact (hout1 (V1 m) c).trans
      (show (Pipeline.ΦA spec1 c : sProp 𝕄) ⊢ iprop((∃ r, prngReg c r) ∗ BI.emp
          ∗ Pipeline.scopedRest (Pipeline.pin (pcfgs (F := F)) adm 1).spec c) from by
        unfold Pipeline.ΦA
        iintro ⟨Hr, Hp⟩
        isplitl [Hp]; · iexact Hp
        isplitr; · iempintro
        iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The three segments in order. -/
abbrev segs : List (Pipeline.Seg (pcfgs (F := F)) adm (pdats m) () defs₀ 𝒱₀ L lv) :=
  [ .region (reg0 m),
    .region (reg1 m),
    .host (hseg hostOps2 hostOps2_sub hostOps2_fresh (W2 m)) ]
/-- The program IS the run of the segments. -/
theorem main_run (c : Dev nD) : main (F := F) c = Pipeline.Seg.run (segs m) := (main_chain c).trans (by chain_rfl)

set_option backward.isDefEq.respectTransparency.types false in
/-- From any memory with zero counters every weakly fair execution of the program terminates, nothing faulting, and in
    every final state each buffer that outlives the regions holds the last contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      show iprop(StableHlo.held (c : Thread nD τ) (Pipeline.ucRefs τ sig) (W3 m c) ∗ R c)
        ⊢ iprop(Tₙ m c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-! ## The arguments end as launched

No host operation writes an argument, and a region only reads one (through an input window, whose array the pipeline
leaves as it found it) or does not touch it: the last contents at an argument's buffer walk back to the launch memory. -/

/-- The host operations write none of the buffers outside their own results. -/
theorem W3_of (c : Dev nD) (r : Ref sig .tc) (h : r ∉ hostOps2_W) : W3 m c r = W2 m c r :=
  StableHlo.after_of_writes_sub hostOps2 _ hostOps2_writes h
theorem W3_main_arg0 (c : Dev nD) : W3 m c (Proc.devRef .tc main_arg0) = m ((c : Thread nD τ).loc main_arg0) :=
  (W3_of m c main_arg0 (by decide)).trans <| (W2_of_ne m c main_arg0 (by decide)).trans <| (W1_of_ne m c main_arg0 (by decide)).trans rfl
theorem W3_main_arg1 (c : Dev nD) : W3 m c (Proc.devRef .tc main_arg1) = m ((c : Thread nD τ).loc main_arg1) :=
  (W3_of m c main_arg1 (by decide)).trans <| (W2_of_ne m c main_arg1 (by decide)).trans <| (W1_of_ne m c main_arg1 (by decide)).trans rfl
theorem W3_main_arg4 (c : Dev nD) : W3 m c (Proc.devRef .tc main_arg4) = m ((c : Thread nD τ).loc main_arg4) :=
  (W3_of m c main_arg4 (by decide)).trans <| (W2_of_ne m c main_arg4 (by decide)).trans <| (W1_of_ne m c main_arg4 (by decide)).trans rfl
theorem W3_main_arg5 (c : Dev nD) : W3 m c (Proc.devRef .tc main_arg5) = m ((c : Thread nD τ).loc main_arg5) :=
  (W3_of m c main_arg5 (by decide)).trans <| (W2_of_ne m c main_arg5 (by decide)).trans <| (W1_of_ne m c main_arg5 (by decide)).trans rfl
theorem W3_main_arg6 (c : Dev nD) : W3 m c (Proc.devRef .tc main_arg6) = m ((c : Thread nD τ).loc main_arg6) :=
  (W3_of m c main_arg6 (by decide)).trans <| (W2_of_ne m c main_arg6 (by decide)).trans <| (W1_of_ne m c main_arg6 (by decide)).trans rfl
/-- The rating matrix is an input window of both regions. -/
theorem W1_main_arg2 (c : Dev nD) : W1 m c (Proc.devRef .tc main_arg2) = m ((c : Thread nD τ).loc main_arg2) :=
  (W1_arr m c 0).trans (((dat0 (V0 m) c).arrAt_in 0 rfl _).trans (A_eq0 (V0 m) c 0))
theorem W2_main_arg2 (c : Dev nD) : W2 m c (Proc.devRef .tc main_arg2) = m ((c : Thread nD τ).loc main_arg2) :=
  ((W2_arr m c 1).trans (((dat1 (V1 m) c).arrAt_in 1 rfl _).trans (A_eq1 (V1 m) c 1))).trans (W1_main_arg2 m c)
theorem W3_main_arg2 (c : Dev nD) : W3 m c (Proc.devRef .tc main_arg2) = m ((c : Thread nD τ).loc main_arg2) :=
  (W3_of m c main_arg2 (by decide)).trans (W2_main_arg2 m c)
/-- The similarity matrix is an input window of the second region only. -/
theorem W2_main_arg3 (c : Dev nD) : W2 m c (Proc.devRef .tc main_arg3) = m ((c : Thread nD τ).loc main_arg3) :=
  ((W2_arr m c 0).trans (((dat1 (V1 m) c).arrAt_in 0 rfl _).trans (A_eq1 (V1 m) c 0))).trans ((W1_of_ne m c main_arg3 (by decide)).trans rfl)
theorem W3_main_arg3 (c : Dev nD) : W3 m c (Proc.devRef .tc main_arg3) = m ((c : Thread nD τ).loc main_arg3) :=
  (W3_of m c main_arg3 (by decide)).trans (W2_main_arg3 m c)

/-- The frame: the program runs to the end, nothing faults, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.KernelIdeal.Hand

end
-- ==== Proof.KI.Tail.lean ====
/-
  The host operations after the two regions, as one function of what they read.

  From the two index vectors (a negative index wrapped once by the axis length), the score matrix S the second region
  left, the two bias vectors and the global bias: the score of batch entry b is S gathered at (user b, item b); the bias
  is user_bias gathered at user b plus item_bias gathered at item b plus the global bias; the result is
  5 · 1 / (1 + exp (−(score + bias))).  `tail_eq` says the fold of the 54 operations over any buffer contents leaves
  exactly that term in the result buffer.
-/
import proofs.«124659_j42116449305198_1_alg».proof.Proof.Gen.KernelIdeal.Launch
import Idealize.ShloMosaic.Lib.StableHlo.Run

noncomputable section

namespace Cert.KernelIdeal.Hand

open Cert.KernelIdeal
open Idealize.ShloMosaic Idealize.ShloMosaic.TcCoe Idealize.SL.Sem Idealize.ShloMosaic.StableHlo
open Facts₀

variable {F : FTy → Type} [FloatOps F]

/-- A user index, wrapped once when negative. -/
def wrapU (a0 : (⟨S8192, .i32⟩ : BufTy).Contents (Elt F)) : (⟨S8192, .i32⟩ : BufTy).Contents (Elt F) :=
  select (cmpi .slt a0 (broadcastInDim S8192 ![] bcast_S_S8192 (constantI S_ 32 0#32)))
    (addi a0 (broadcastInDim S8192 ![] bcast_S_S8192 (constantI S_ 32 8192#32))) a0

/-- An item index, wrapped once when negative. -/
def wrapI (a1 : (⟨S8192, .i32⟩ : BufTy).Contents (Elt F)) : (⟨S8192, .i32⟩ : BufTy).Contents (Elt F) :=
  select (cmpi .slt a1 (broadcastInDim S8192 ![] bcast_S_S8192 (constantI S_ 32 0#32)))
    (addi a1 (broadcastInDim S8192 ![] bcast_S_S8192 (constantI S_ 32 4096#32))) a1

/-- The score matrix gathered at the pairs (user b, item b). -/
def scoreOf (s : (⟨S8192x4096, .f32⟩ : BufTy).Contents (Elt F)) (a0 a1 : (⟨S8192, .i32⟩ : BufTy).Contents (Elt F)) :
    (⟨S8192, .f32⟩ : BufTy).Contents (Elt F) :=
  Host.gather gather_S8192x4096_S8192x2_S8192_n_01_n_n_01_1_11 s
    (concatenate S8192x2 1 [⟨S8192x1, broadcastInDim S8192x1 ![0] bcast_S8192_S8192x1_0 (wrapU a0)⟩,
      ⟨S8192x1, broadcastInDim S8192x1 ![0] bcast_S8192_S8192x1_0 (wrapI a1)⟩] concatenates_S8192x1_S8192x1_S8192x2_d1)

/-- The three bias terms of every batch entry, added. -/
def biasOf (a0 a1 : (⟨S8192, .i32⟩ : BufTy).Contents (Elt F)) (a4 : (⟨S8192, .f32⟩ : BufTy).Contents (Elt F))
    (a5 : (⟨S4096, .f32⟩ : BufTy).Contents (Elt F)) (a6 : (⟨S_, .f32⟩ : BufTy).Contents (Elt F)) :
    (⟨S8192, .f32⟩ : BufTy).Contents (Elt F) :=
  addf (addf (Host.gather gather_S8192_S8192x1_S8192_n_0_n_n_0_1_1 a4 (broadcastInDim S8192x1 ![0] bcast_S8192_S8192x1_0 (wrapU a0)))
      (Host.gather gather_S4096_S8192x1_S8192_n_0_n_n_0_1_1 a5 (broadcastInDim S8192x1 ![0] bcast_S8192_S8192x1_0 (wrapI a1))))
    (broadcastInDim S8192 ![] bcast_S_S8192 a6)

/-- z ↦ 5 · 1 / (1 + exp (−z)), entry by entry. -/
def squash (z : (⟨S8192, .f32⟩ : BufTy).Contents (Elt F)) : (⟨S8192, .f32⟩ : BufTy).Contents (Elt F) :=
  mulf (Host.divf (broadcastInDim S8192 ![] bcast_S_S8192 (constant S_ .f32 0x3F800000#32))
      (addf (broadcastInDim S8192 ![] bcast_S_S8192 (constant S_ .f32 0x3F800000#32)) (Host.exp (Host.negf z))))
    (broadcastInDim S8192 ![] bcast_S_S8192 (constant S_ .f32 0x40A00000#32))

set_option maxRecDepth 65536 in
set_option maxHeartbeats 4000000 in
/-- The host operations leave, in the result buffer, the squashed sum of the gathered score and the bias, read off the
    contents they start from. -/
theorem tail_eq (W : Valuation τ sig (Elt F)) :
    StableHlo.after Gen.hostOps2 W (Proc.devRef .tc main_v41)
      = squash (addf (scoreOf (W (Proc.devRef .tc main_v1)) (W (Proc.devRef .tc main_arg0)) (W (Proc.devRef .tc main_arg1)))
          (biasOf (W (Proc.devRef .tc main_arg0)) (W (Proc.devRef .tc main_arg1)) (W (Proc.devRef .tc main_arg4))
            (W (Proc.devRef .tc main_arg5)) (W (Proc.devRef .tc main_arg6)))) := by
  after_results_simp <;> rfl

end Cert.KernelIdeal.Hand

end
-- ==== Proof.LibGatherPoint.lean ====
/-
  A gather of single elements of a matrix at pairs of start indices.

  For a matrix of N rows and M columns and an R-by-2 array of start indices, the gather that collapses both axes reads,
  for entry b, the element at row idx[b,0] and column idx[b,1], each start index read as a signed integer and clamped
  into its axis (a slice of one element may start anywhere from 0 to the last position).
-/
import Idealize.ShloMosaic.PureOps
import Idealize.ShloMosaic.Lib.ValueIdx

noncomputable section

namespace Cert.LibGatherPoint

open Idealize.ShloMosaic Idealize.ShloMosaic.ValueIdx

variable {α : Type}

/-- The dimension numbers of a point gather out of an N-by-M matrix at R pairs of start indices. -/
def pointDims (N M R : Nat) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The start-indices index `[b, c]` of component c of entry b's start index. -/
abbrev pairIdx {R : Nat} (y : (⟨1, ![R]⟩ : Shape).Idx) (c : Fin 2) : (⟨2, ![R, 2]⟩ : Shape).Idx :=
  fun a => match a with | ⟨0, _⟩ => ⟨(y 0).val, (y 0).isLt⟩ | ⟨1, _⟩ => ⟨c.val, c.isLt⟩

/-- The point gather read at entry y: the matrix at the two start indices of y, read signed and clamped. -/
theorem gather_point_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (y : (⟨1, ![R]⟩ : Shape).Idx) :
    Host.gather (pointDims N M R wf) x idx y
      = x (ix2 ⟨min (idx (pairIdx y 0)).toInt.toNat (N - 1), by omega⟩ ⟨min (idx (pairIdx y 1)).toInt.toNat (M - 1), by omega⟩) := by
  unfold Host.gather
  congr 1
  funext a
  refine Fin.ext ?_
  show (pointDims N M R wf).start y idx a + (pointDims N M R wf).batchCoord y a + (pointDims N M R wf).offCoord y a = _
  have h2 : a = 0 ∨ a = 1 := by
    rcases a with ⟨v, hv⟩
    have hv2 : v < 2 := hv
    interval_cases v
    · exact Or.inl rfl
    · exact Or.inr rfl
  rcases h2 with rfl | rfl
  · rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (0 : Fin 2) ∈ (pointDims N M R wf).startIndexMap from List.mem_cons_self)]
    have hsi : (pointDims N M R wf).siIdx y ⟨List.idxOf (0 : Fin 2) (pointDims N M R wf).startIndexMap,
        List.idxOf_lt_length_iff.2 List.mem_cons_self⟩ = pairIdx y 0 := by
      funext b; refine Fin.ext ?_
      match b with
      | ⟨0, _⟩ => rfl
      | ⟨1, _⟩ => rfl
    rw [hsi]
    rfl
  · rw [GatherDims.batchCoord_eq_zero _ _ _ List.not_mem_nil,
      GatherDims.offCoord_eq_zero _ _ _ (fun h => ((GatherDims.mem_sKept _ _).mp h).1 (List.mem_cons_of_mem _ List.mem_cons_self))]
    simp only [Nat.add_zero]
    unfold GatherDims.start
    rw [dif_pos (show (1 : Fin 2) ∈ (pointDims N M R wf).startIndexMap from List.mem_cons_of_mem _ List.mem_cons_self)]
    have hsi : (pointDims N M R wf).siIdx y ⟨List.idxOf (1 : Fin 2) (pointDims N M R wf).startIndexMap,
        List.idxOf_lt_length_iff.2 (List.mem_cons_of_mem _ List.mem_cons_self)⟩ = pairIdx y 1 := by
      funext b; refine Fin.ext ?_
      match b with
      | ⟨0, _⟩ => rfl
      | ⟨1, _⟩ => rfl
    rw [hsi]
    rfl

end Cert.LibGatherPoint

end
-- ==== Proof.Spec2.lean ====
/-
  The row and the column the gathers really read.

  An index word is read as a signed integer and clamped into the axis: a negative word reads position 0, a word past the
  end reads the last position (what a gather does with a start index, for a slice of one element). `cu` and `ci` are the
  user row and the item column that batch entry b reads, from the (already wrapped) index vectors.
-/
import Idealize.ShloMosaic.PureOps.Ideal
import Idealize.ShloMosaic.Lib.ValueIdx

noncomputable section

namespace Cert.Hand.Spec

open Idealize.ShloMosaic Idealize.ShloMosaic.ValueIdx

/-- A 32-bit word read signed and clamped into `0 … N − 1`. -/
def clampIdx (N : ℕ) (hN : 0 < N) (w : BitVec 32) : Fin N := ⟨min w.toInt.toNat (N - 1), by omega⟩

/-- The user row batch entry b reads. -/
def cu (u' : (⟨1, ![8192]⟩ : Shape).Idx → BitVec 32) (b : Fin 8192) : Fin 8192 := clampIdx 8192 (by decide) (u' (ix1 b))

/-- The item column batch entry b reads. -/
def ci (i' : (⟨1, ![8192]⟩ : Shape).Idx → BitVec 32) (b : Fin 8192) : Fin 4096 := clampIdx 4096 (by decide) (i' (ix1 b))

end Cert.Hand.Spec

end
-- ==== Proof.KI.Score.lean ====
/-
  The gathered score, entry by entry.

  The index array of the point gather is the two wrapped index vectors laid side by side: column 0 holds the user
  index of each batch entry, column 1 its item index. So the score of entry b is the score matrix at the row and the
  column that those two indices denote once read signed and clamped (`Spec.cu`, `Spec.ci`).
-/
import proofs.«124659_j42116449305198_1_alg».proof.Proof.KI.Tail
import proofs.«124659_j42116449305198_1_alg».proof.Proof.LibGatherPoint
import proofs.«124659_j42116449305198_1_alg».proof.Proof.Spec2
import Idealize.ShloMosaic.Lib.Pipeline.Value

noncomputable section

namespace Cert.KernelIdeal.Hand

open Cert.KernelIdeal
open Idealize.ShloMosaic Idealize.ShloMosaic.TcCoe Idealize.ShloMosaic.ValueIdx
open Facts₀

variable {F : FTy → Type} [FloatOps F]

/-- A vector spread along a new trailing unit axis, read at (b, 0), is the vector at b. -/
theorem col_apply (v : (⟨S8192, .i32⟩ : BufTy).Contents (Elt F)) (b : Fin 8192) :
    broadcastInDim S8192x1 ![0] bcast_S8192_S8192x1_0 v (ix2 b (0 : Fin 1)) = v (ix1 b) :=
  broadcastInDim_apply _ bcast_S8192_S8192x1_0 v (ix2 b (0 : Fin 1)) (ix1 b) (fun a => by
    obtain rfl : a = 0 := Subsingleton.elim _ _
    rw [if_neg (by decide)]; rfl)

/-- The two columns side by side, read in column 0 of row b: the first vector at b. -/
theorem pair_left (v₁ v₂ : (⟨S8192, .i32⟩ : BufTy).Contents (Elt F)) (b : Fin 8192) :
    concatenate S8192x2 1 [⟨S8192x1, broadcastInDim S8192x1 ![0] bcast_S8192_S8192x1_0 v₁⟩,
        ⟨S8192x1, broadcastInDim S8192x1 ![0] bcast_S8192_S8192x1_0 v₂⟩] concatenates_S8192x1_S8192x1_S8192x2_d1
      (Cert.LibGatherPoint.pairIdx (ix1 b) 0) = v₁ (ix1 b) := by
  rw [concatenate_pair_apply_left (t := S8192x2) (s₁ := S8192x1) (s₂ := S8192x1) (1 : Fin 2) _ _ concatenates_S8192x1_S8192x1_S8192x2_d1 (Cert.LibGatherPoint.pairIdx (ix1 b) 0) rfl
    (ix2 b (0 : Fin 1)) (fun d => by match d with | ⟨0, _⟩ => rfl | ⟨1, _⟩ => rfl)]
  exact col_apply v₁ b

/-- The two columns side by side, read in column 1 of row b: the second vector at b. -/
theorem pair_right (v₁ v₂ : (⟨S8192, .i32⟩ : BufTy).Contents (Elt F)) (b : Fin 8192) :
    concatenate S8192x2 1 [⟨S8192x1, broadcastInDim S8192x1 ![0] bcast_S8192_S8192x1_0 v₁⟩,
        ⟨S8192x1, broadcastInDim S8192x1 ![0] bcast_S8192_S8192x1_0 v₂⟩] concatenates_S8192x1_S8192x1_S8192x2_d1
      (Cert.LibGatherPoint.pairIdx (ix1 b) 1) = v₂ (ix1 b) := by
  rw [concatenate_pair_apply_right (t := S8192x2) (s₁ := S8192x1) (s₂ := S8192x1) (1 : Fin 2) _ _ concatenates_S8192x1_S8192x1_S8192x2_d1 (Cert.LibGatherPoint.pairIdx (ix1 b) 1) rfl rfl
    (ix2 b (0 : Fin 1)) (fun d hd => by
      match d with
      | ⟨0, _⟩ => rfl
      | ⟨1, _⟩ => exact absurd rfl hd) rfl]
  exact col_apply v₂ b

/-- The score of batch entry b is the score matrix at the row and column its two indices denote. -/
theorem scoreOf_apply (s : (⟨S8192x4096, .f32⟩ : BufTy).Contents (Elt F)) (a0 a1 : (⟨S8192, .i32⟩ : BufTy).Contents (Elt F))
    (b : Fin 8192) :
    scoreOf s a0 a1 (ix1 b) = s (ix2 (Cert.Hand.Spec.cu (wrapU a0) b) (Cert.Hand.Spec.ci (wrapI a1) b)) := by
  unfold scoreOf
  have hd : gather_S8192x4096_S8192x2_S8192_n_01_n_n_01_1_11
      = Cert.LibGatherPoint.pointDims 8192 4096 8192 gather_S8192x4096_S8192x2_S8192_n_01_n_n_01_1_11_wf := rfl
  rw [hd, Cert.LibGatherPoint.gather_point_apply (by decide) (by decide)]
  refine congrArg s (funext fun d => Fin.ext ?_)
  match d with
  | ⟨0, _⟩ => exact congrArg (fun w : BitVec 32 => min w.toInt.toNat (8192 - 1)) (pair_left (wrapU a0) (wrapI a1) b)
  | ⟨1, _⟩ => exact congrArg (fun w : BitVec 32 => min w.toInt.toNat (4096 - 1)) (pair_right (wrapU a0) (wrapI a1) b)

end Cert.KernelIdeal.Hand

end
-- ==== Proof.Spec.lean ====
/-
  The specification both programs are compared against, over the extended reals, index by index.

  For a rating matrix r (8192 users by 4096 items) the corrected user bias is the mean of a user's NONZERO ratings:
  cnt u counts them (a sum of ones and zeros), rsum u adds the row, and bf u = rsum u / max (cnt u) 1 when cnt u > 0,
  else 0.  The similarity score of user u for item i is S u i = Σ_k sim u k · (r k i − bf k): every user's ratings,
  centred by that user's own mean, weighted by the similarity of u to that user.
-/
import Idealize.ShloMosaic.PureOps.Ideal
import Idealize.ShloMosaic.Lib.ValueIdx

noncomputable section

namespace Cert.Hand.Spec

open Idealize.ShloMosaic Idealize.ShloMosaic.ValueIdx

/-- A matrix of extended reals, indexed as the arrays of the programs are. -/
abbrev Mat (a b : ℕ) : Type := (⟨2, ![a, b]⟩ : Shape).Idx → EReal

/-- One for a nonzero entry, zero for a zero entry. -/
def nz (x : EReal) : EReal := if x ≠ 0 then 1 else 0

/-- How many ratings of user u are nonzero. -/
def cnt (r : Mat 8192 4096) (u : Fin 8192) : EReal := ∑ i : Fin 4096, nz (r (ix2 u i))

/-- The sum of user u's ratings. -/
def rsum (r : Mat 8192 4096) (u : Fin 8192) : EReal := ∑ i : Fin 4096, r (ix2 u i)

/-- The mean of user u's nonzero ratings; zero for a user who rated nothing. -/
def bf (r : Mat 8192 4096) (u : Fin 8192) : EReal :=
  if 0 < cnt r u then Ideal.div (rsum r u) (max (cnt r u) 1) else 0

/-- The similarity-weighted sum of the centred ratings of item i. -/
def S (sim : Mat 8192 8192) (r : Mat 8192 4096) (u : Fin 8192) (i : Fin 4096) : EReal :=
  ∑ k : Fin 8192, sim (ix2 u k) * (r (ix2 k i) - bf r k)

end Cert.Hand.Spec

end
-- ==== Proof.KI.G.lean ====
/-
  The result of the program as one function of its seven argument arrays, at the extended reals: for batch entry b,
  5 · 1 / (1 + exp (−(S (user b) (item b) + bias b))), where S is the similarity-weighted sum of the centred ratings
  (`Spec.S`), user b and item b are the entry's indices wrapped once when negative and clamped into their axes, and
  bias b adds the user's bias, the item's bias and the global bias.
-/
import proofs.«124659_j42116449305198_1_alg».proof.Proof.KI.Tail
import proofs.«124659_j42116449305198_1_alg».proof.Proof.Spec
import proofs.«124659_j42116449305198_1_alg».proof.Proof.Spec2

noncomputable section

namespace Cert.KernelIdeal.Hand

open Cert.KernelIdeal
open Idealize.ShloMosaic Idealize.ShloMosaic.TcCoe Idealize.ShloMosaic.ValueIdx

/-- The result as a function of the argument arrays: the squashed sum of the score each batch entry's (user, item) pair
    selects and the entry's bias. -/
def G (a0 a1 : (⟨S8192, .i32⟩ : BufTy).Contents (Elt Ideal)) (a2 : (⟨S8192x4096, .f32⟩ : BufTy).Contents (Elt Ideal))
    (a3 : (⟨S8192x8192, .f32⟩ : BufTy).Contents (Elt Ideal)) (a4 : (⟨S8192, .f32⟩ : BufTy).Contents (Elt Ideal))
    (a5 : (⟨S4096, .f32⟩ : BufTy).Contents (Elt Ideal)) (a6 : (⟨S_, .f32⟩ : BufTy).Contents (Elt Ideal)) :
    (⟨S8192, .f32⟩ : BufTy).Contents (Elt Ideal) :=
  squash (F := Ideal) (addf (F := Ideal) (φ := .f32)
    (fun i => Cert.Hand.Spec.S a3 a2 (Cert.Hand.Spec.cu (wrapU a0) (i 0)) (Cert.Hand.Spec.ci (wrapI a1) (i 0)))
    (biasOf a0 a1 a4 a5 a6))

end Cert.KernelIdeal.Hand

end
-- ==== Proof.KI.Region0Value.lean ====
import proofs.«124659_j42116449305198_1_alg».proof.Proof.KI.Region0
import proofs.«124659_j42116449305198_1_alg».proof.Proof.Spec
import Idealize.ShloMosaic.Lib.Pipeline.Value
import Idealize.ShloMosaic.Lib.ValueIdx
import Idealize.ShloMosaic.Lib.IdealHost
import Idealize.ShloMosaic.PureOps.Ideal.Laws

/-!
  The value region 0 leaves in its output array, over the extended reals.

  For every user row u the column ends holding the mean of the row's nonzero ratings:
  with cnt u the number of nonzero entries of the row (a sum of ones and zeros) and rsum u the row's sum,
  the entry is rsum u / max (cnt u) 1 when cnt u is positive and zero otherwise.  First the body's payload is
  read at one row of a block; then a block of the output is shown to be the restriction of that whole-column function
  to the block's 512 rows; the 16 blocks cover the column.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Hand

/-! ## The payload at one row of a block -/

/-- The comparison "differs from zero", widened to 32 bits and read as a number, is the indicator of a nonzero entry. -/
theorem ind_eq_nz (y : EReal) :
    ((((Ideal.cmp .one y 0).setWidth 32 : BitVec 32).toInt : ℝ) : EReal) = Spec.nz y := by
  unfold Spec.nz Ideal.cmp
  by_cases h : y = 0
  · subst h; simp
  · simp [h]

/-- The index the lane sum reads: row p, lane k. -/
theorem lift_row (p : Fin 512) (k : Fin 4096) :
    reduces_S512x4096_S512.lift (a := (1 : Fin 2)) (ix1 p) k = ix2 p k := by
  funext a
  match a with
  | ⟨0, _⟩ => exact Fin.ext rfl
  | ⟨1, _⟩ => exact Fin.ext rfl

/-- A sum over the lanes of a 512 by 4096 block, read at row p. -/
theorem lane_sum (v : FVec Ideal S512x4096 .f32) (p : Fin 512) :
    multiReduction .add [1] S512 v 0x00000000#32 reduces_S512x4096_S512 (.inl rfl) rfl (ix1 p)
      = ∑ k : Fin 4096, v (ix2 p k) :=
  (Ideal.multiReduction_add_single v 0x00000000#32 reduces_S512x4096_S512 (.inl rfl) rfl (ix1 p)).trans
    (Finset.sum_congr rfl fun k _ => congrArg v (lift_row p k))

/-- A vector of 512 entries recast as a column reads, at row p, its entry p. -/
theorem column_cast (v : FVec Ideal S512 .f32) (p : Fin 512) :
    shapeCast S512x1 v shapeCasts_S512_S512x1 (ix2 p (0 : Fin 1)) = v (ix1 p) :=
  shapeCast_apply v shapeCasts_S512_S512x1 _ _ (by
    rw [Shape.rowMajor_val_one, Shape.rowMajor_val_two]
    show p.val = p.val * 1 + 0
    omega)

/-- The payload at row p of a block x: the mean of the row's nonzero entries, zero for a row of zeros. -/
theorem pay_row (x : Vec Ideal S512x4096 .f32) (p : Fin 512) :
    k0_pay1 (F := Ideal) x (ix2 p (0 : Fin 1))
      = if 0 < ∑ i : Fin 4096, Spec.nz (x (ix2 p i))
        then Ideal.div (∑ i : Fin 4096, x (ix2 p i)) (max (∑ i : Fin 4096, Spec.nz (x (ix2 p i))) 1) else 0 := by
  -- the count and the sum of the row, as the body computes them
  have hcnt : shapeCast S512x1 (multiReduction (F := Ideal) .add [1] S512
        (sitofp (F := Ideal) .f32 (extui 32 (cmpf .one x (broadcast S512x4096 (Scalar.ofBits (F := Ideal) .f32 0x00000000#32))) natLt_1_32))
        0x00000000#32 reduces_S512x4096_S512 (.inl rfl) rfl) shapeCasts_S512_S512x1 (ix2 p (0 : Fin 1))
      = ∑ i : Fin 4096, Spec.nz (x (ix2 p i)) := by
    refine (column_cast _ p).trans ((lane_sum _ p).trans (Finset.sum_congr rfl fun i _ => ?_))
    show ((((Ideal.cmp .one (x (ix2 p i)) (Ideal.ofBits .f32 0x00000000#32)).setWidth 32 : BitVec 32).toInt : ℝ) : EReal) = _
    rw [Ideal.ofBits_zero_f32]
    exact ind_eq_nz _
  have hsum : shapeCast S512x1 (multiReduction (F := Ideal) .add [1] S512 x 0x00000000#32 reduces_S512x4096_S512 (.inl rfl) rfl)
        shapeCasts_S512_S512x1 (ix2 p (0 : Fin 1)) = ∑ i : Fin 4096, x (ix2 p i) :=
    (column_cast (multiReduction (F := Ideal) .add [1] S512 x 0x00000000#32 reduces_S512x4096_S512 (.inl rfl) rfl) p).trans (lane_sum x p)
  -- the pointwise tail: compare, clamp, divide, choose
  show Scalar.select (Ideal.cmp .ogt (shapeCast S512x1 _ shapeCasts_S512_S512x1 (ix2 p (0 : Fin 1))) (Ideal.ofBits .f32 0x00000000#32))
      (Ideal.div (shapeCast S512x1 _ shapeCasts_S512_S512x1 (ix2 p (0 : Fin 1)))
        (max (shapeCast S512x1 _ shapeCasts_S512_S512x1 (ix2 p (0 : Fin 1))) (Ideal.ofBits .f32 0x3F800000#32)))
      (Ideal.ofBits .f32 0x00000000#32) = _
  rw [hcnt, hsum, Ideal.ofBits_zero_f32, Ideal.ofBits_one_f32]
  unfold Ideal.cmp
  by_cases h : 0 < ∑ i : Fin 4096, Spec.nz (x (ix2 p i))
  · rw [if_pos h]; simp only [h, decide_true]; exact select_one _ _
  · rw [if_neg h]; simp only [h, decide_false]; exact select_zero _ _

/-- The same, against the specification: when row p of the block x is row u of the matrix a, the payload at row p
    is the mean of the nonzero ratings of user u. -/
theorem pay_eq_bf (x : Vec Ideal S512x4096 .f32) (a : Spec.Mat 8192 4096) (y : S512x1.Idx) (p : Fin 512) (u : Fin 8192)
    (hp : (y 0).val = p.val) (hrow : ∀ i : Fin 4096, x (ix2 p i) = a (ix2 u i)) :
    k0_pay1 (F := Ideal) x y = Spec.bf a u := by
  have hy : y = ix2 p (0 : Fin 1) := by
    funext d
    match d with
    | ⟨0, _⟩ => exact Fin.ext hp
    | ⟨1, _⟩ => exact Fin.ext (show (y 1).val = 0 from Nat.lt_one_iff.mp (y 1).isLt)
  rw [hy, pay_row]
  unfold Spec.bf Spec.cnt Spec.rsum
  simp only [hrow]

/-! ## From the blocks to the column -/

section Column
variable (V : (c : Dev nD) → (b : Ref sig .tc) → Buf (Elt Ideal) ((c : Thread nD τ).loc b))

/-- The printed index maps over the 16 points: point t reads rows 512 t … 512 t + 511 of the matrix, all columns,
    and writes the same rows of the column. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the column of means of the matrix as the region finds it. -/
theorem flushed_eq0 (c : Dev nD) (t : Fin cfg0.N) :
    (dat0 (F := Ideal) V c).flushed 1 t
      = ((cfg0.win 1).blk t).view.read (Elt Ideal) (fun j : S8192x1.Idx => Spec.bf (V c main_arg2) (j 0)) := by
  show (cfg0.win 1).cut (grid0.coords t) ((dat0 V c).after 1 t) = _
  rw [after0_1, out0_1_eq]
  obtain ⟨e0, e1, e2, e3⟩ := idx_facts0 t
  funext y
  show k0_pay1 (F := Ideal) (iblk0 V c 0 t) y = Spec.bf (V c main_arg2) ((((cfg0.win 1).blk t).view.emb y) 0)
  refine pay_eq_bf (iblk0 V c 0 t) (V c main_arg2) y (y 0) ((((cfg0.win 1).blk t).view.emb y) 0) rfl (fun i => ?_)
  show V c main_arg2 (((cfg0.win 0).blk t).view.emb (ix2 (y 0) i)) = V c main_arg2 (ix2 ((((cfg0.win 1).blk t).view.emb y) 0) i)
  refine congrArg (V c main_arg2) (funext fun d => Fin.ext ?_)
  match d with
  | ⟨0, _⟩ =>
    show win0_0.index t (0 : Fin 2) * 512 + 1 * (y 0).val = win0_1.index t (0 : Fin 2) * 512 + 1 * (y 0).val
    rw [e0, e2]
  | ⟨1, _⟩ =>
    show win0_0.index t (1 : Fin 2) * 4096 + 1 * i.val = i.val
    rw [e1]; omega

/-- An index of the column is in point t's block iff each coordinate is in the block's range on its axis. -/
theorem mem_blk0 (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Row r of the column is written by point r / 512. -/
theorem cover0 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨e0, e1, e2, e3⟩ := idx_facts0 t
  refine ⟨t, flush0_1 t, ?_⟩
  rw [mem_blk0]
  intro a
  match a with
  | ⟨0, _⟩ =>
    show win0_1.index t (0 : Fin 2) * 512 ≤ (i 0).val ∧ (i 0).val < win0_1.index t (0 : Fin 2) * 512 + 512
    rw [e2, ht]; omega
  | ⟨1, _⟩ =>
    show win0_1.index t (1 : Fin 2) * 1 ≤ (i 1).val ∧ (i 1).val < win0_1.index t (1 : Fin 2) * 1 + 1
    rw [e3]; omega

/-- After the 16 points the output array holds, row by row, the mean of the nonzero ratings of the matrix
    as the region found it. -/
theorem arr0 (c : Dev nD) :
    (dat0 (F := Ideal) V c).arrAt 1 cfg0.N = fun j => Spec.bf (V c main_arg2) (j 0) :=
  (dat0 (F := Ideal) V c).arrAt_eq_of_cover 1 (fun j : S8192x1.Idx => Spec.bf (V c main_arg2) (j 0))
    (fun t _ => flushed_eq0 V c t) cover0

end Column

end Cert.KernelIdeal.Hand

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.KI.MatmulPure.lean ====
/-
  One accumulation step of the similarity product, index by index, over the extended reals.

  The accumulator starts as the zero block.  A step adds to the accumulator, at (p, q), the product of a
  512-by-1024 block of similarities with a 1024-by-1024 block of ratings from which each row's own mean
  (a 1024-by-1 column) has been subtracted:  acc (p, q) + Σ_kk sim (p, kk) · (r (kk, q) − b (kk, 0)).
  The narrowing format changes are the identity on the extended reals, and the product into the zero
  accumulator is the plain sum over the contracted coordinate.  A step whose blocks hold the contracted
  coordinates 1024·s, …, 1024·s + 1023 adds the terms with those numbers to the sum of the terms below 1024·s, so
  eight such steps make the one sum over 8192 coordinates: only commutativity and associativity of the addition
  are used.
-/
import proofs.«124659_j42116449305198_1_alg».proof.Proof.Gen.KernelIdeal.Skeleton
import proofs.«124659_j42116449305198_1_alg».proof.Proof.LibLayout
import Idealize.ShloMosaic.PureOps.Ideal.Laws
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx

/-- The block the accumulator is started with is zero everywhere. -/
theorem k1_pay1_apply (j : S512x1024.Idx) : k1_pay1 (F := Ideal) j = 0 := by
  unfold k1_pay1
  rw [shapeCast_self]
  exact Ideal.ofBits_zero_f32

/-- The product's operand indices at output index (p, q) and contracted coordinate kk are (p, kk) and (kk, q). -/
theorem dot_lhsIdx (p : Fin 512) (q : Fin 1024) (kk : Fin 1024) :
    dot_S512x1024_S1024x1024_S512x1024_1_0_0_1_n_n.lhsIdx (ix2 p q)
      ((contrEquiv1 dot_S512x1024_S1024x1024_S512x1024_1_0_0_1_n_n 1024 rfl rfl).symm kk) = ix2 p kk := by
  have c2 := contrEquiv1_symm_val dot_S512x1024_S1024x1024_S512x1024_1_0_0_1_n_n 1024 rfl rfl kk
  funext ax; apply Fin.ext
  match ax with
  | ⟨0, _⟩ => simp [DotDims.lhsIdx, dot_S512x1024_S1024x1024_S512x1024_1_0_0_1_n_n]; rfl
  | ⟨1, _⟩ => simp [DotDims.lhsIdx, dot_S512x1024_S1024x1024_S512x1024_1_0_0_1_n_n]; exact c2

theorem dot_rhsIdx (p : Fin 512) (q : Fin 1024) (kk : Fin 1024) :
    dot_S512x1024_S1024x1024_S512x1024_1_0_0_1_n_n.rhsIdx (ix2 p q)
      ((contrEquiv1 dot_S512x1024_S1024x1024_S512x1024_1_0_0_1_n_n 1024 rfl rfl).symm kk) = ix2 kk q := by
  have c2 := contrEquiv1_symm_val dot_S512x1024_S1024x1024_S512x1024_1_0_0_1_n_n 1024 rfl rfl kk
  funext ax; apply Fin.ext
  match ax with
  | ⟨0, _⟩ => simp [DotDims.rhsIdx, dot_S512x1024_S1024x1024_S512x1024_1_0_0_1_n_n]; exact c2
  | ⟨1, _⟩ => simp [DotDims.rhsIdx, dot_S512x1024_S1024x1024_S512x1024_1_0_0_1_n_n]; rfl

/-- One step: the accumulator plus the block product of the similarities with the centred ratings. -/
theorem k1_pay2_apply (x3 : Vec Ideal S512x1024 .f32) (x5 : Vec Ideal S1024x1024 .f32) (x6 : Vec Ideal S1024x1 .f32)
    (x11 : Vec Ideal S512x1024 .f32) (p : Fin 512) (q : Fin 1024) :
    k1_pay2 x3 x5 x6 x11 (ix2 p q)
      = x11 (ix2 p q) + ∑ kk : Fin 1024, x3 (ix2 p kk) * (x5 (ix2 kk q) - x6 (ix2 kk (0 : Fin 1))) := by
  unfold k1_pay2
  rw [shapeCast_self, shapeCast_self]
  refine congrArg (x11 (ix2 p q) + ·) ?_
  refine (Ideal.matmul_constant_zero_apply dot_S512x1024_S1024x1024_S512x1024_1_0_0_1_n_n none _ _ (ix2 p q)).trans ?_
  rw [← Equiv.sum_comp (contrEquiv1 dot_S512x1024_S1024x1024_S512x1024_1_0_0_1_n_n 1024 rfl rfl).symm]
  refine Finset.sum_congr rfl fun kk _ => ?_
  rw [dot_lhsIdx, dot_rhsIdx]
  show x3 (ix2 p kk) * (x5 (ix2 kk q) - broadcastTo S1024x1024 x6 broadcasts_S1024x1_S1024x1024 (ix2 kk q)) = _
  rw [Cert.LibLayout.broadcastTo_a1_ab_apply]

/-- The similarity-weighted sum of the ratings of item i, every user's ratings centred by that user's entry of a
    column b:  Σ_k sim (u, k) · (r (k, i) − b (k, 0)). -/
def wsum (sim : S8192x8192.Idx → EReal) (r : S8192x4096.Idx → EReal) (b : S8192x1.Idx → EReal) (u : Fin 8192) (i : Fin 4096) : EReal :=
  ∑ k : Fin 8192, sim (ix2 u k) * (r (ix2 k i) - b (ix2 k (0 : Fin 1)))

/-- One term of the sum, as a function of the natural number k (zero past the last user). -/
def term (sim : S8192x8192.Idx → EReal) (r : S8192x4096.Idx → EReal) (b : S8192x1.Idx → EReal) (u : Fin 8192) (i : Fin 4096)
    (k : ℕ) : EReal :=
  if h : k < 8192 then sim (ix2 u ⟨k, h⟩) * (r (ix2 ⟨k, h⟩ i) - b (ix2 ⟨k, h⟩ (0 : Fin 1))) else 0

/-- The whole sum is the sum of the terms below 8192. -/
theorem wsum_eq_range (sim : S8192x8192.Idx → EReal) (r : S8192x4096.Idx → EReal) (b : S8192x1.Idx → EReal) (u : Fin 8192)
    (i : Fin 4096) : wsum sim r b u i = ∑ k ∈ Finset.range 8192, term sim r b u i k := by
  unfold wsum
  rw [Finset.sum_range]
  refine Finset.sum_congr rfl fun k _ => ?_
  unfold term
  rw [dif_pos k.isLt]

/-- A block product whose factors are the entries with contracted coordinate 1024·s + kk is the sum of the terms
    1024·s, …, 1024·s + 1023. -/
theorem block_sum (sim : S8192x8192.Idx → EReal) (r : S8192x4096.Idx → EReal) (b : S8192x1.Idx → EReal) (u : Fin 8192)
    (i : Fin 4096) (s : ℕ) (hs : s < 8) (x3 : Vec Ideal S512x1024 .f32) (x5 : Vec Ideal S1024x1024 .f32)
    (x6 : Vec Ideal S1024x1 .f32) (p : Fin 512) (q : Fin 1024)
    (h3 : ∀ (kk : Fin 1024) (k : Fin 8192), k.val = 1024 * s + kk.val → x3 (ix2 p kk) = sim (ix2 u k))
    (h5 : ∀ (kk : Fin 1024) (k : Fin 8192), k.val = 1024 * s + kk.val → x5 (ix2 kk q) = r (ix2 k i))
    (h6 : ∀ (kk : Fin 1024) (k : Fin 8192), k.val = 1024 * s + kk.val → x6 (ix2 kk (0 : Fin 1)) = b (ix2 k (0 : Fin 1))) :
    ∑ kk : Fin 1024, x3 (ix2 p kk) * (x5 (ix2 kk q) - x6 (ix2 kk (0 : Fin 1)))
      = ∑ x ∈ Finset.range 1024, term sim r b u i (1024 * s + x) := by
  rw [Finset.sum_range]
  refine Finset.sum_congr rfl fun kk _ => ?_
  have hlt : 1024 * s + kk.val < 8192 := by have := kk.isLt; omega
  unfold term
  rw [dif_pos hlt, h3 kk ⟨_, hlt⟩ rfl, h5 kk ⟨_, hlt⟩ rfl, h6 kk ⟨_, hlt⟩ rfl]

/-- Adding the next block of 1024 terms to the sum of the terms below 1024·s gives the sum of the terms below
    1024·(s + 1). -/
theorem acc_step (T : ℕ → EReal) (s : ℕ) (a blk : EReal) (ha : a = ∑ k ∈ Finset.range (1024 * s), T k)
    (hb : blk = ∑ x ∈ Finset.range 1024, T (1024 * s + x)) : a + blk = ∑ k ∈ Finset.range (1024 * (s + 1)), T k := by
  rw [Nat.mul_succ, Finset.sum_range_add, ha, hb]

end Cert.KernelIdeal.Hand

end
-- ==== Proof.KI.Region1Value.lean ====
/-
  What the second region leaves in its result array, over the extended reals.

  The region visits 512 points; point t has coordinates (t / 32, (t / 8) % 4, t % 8).  At point t the similarity
  block is rows 512·(t/32) + p and columns 1024·(t%8) + kk of the similarity matrix, the rating block is rows
  1024·(t%8) + kk and columns 1024·((t/8)%4) + q of the rating matrix, and the block of means is rows
  1024·(t%8) + kk of the column of means.  The accumulator is started at zero when t % 8 = 0 and at every point
  gains the block product, so after point t it holds, at (p, q), the terms k < 1024·(t%8 + 1) of

      Σ_k sim (u, k) · (r (k, i) − b (k, 0)),      u = 512·(t/32) + p,  i = 1024·((t/8)%4) + q

  (induction on the point; only commutativity and associativity of the addition are used).  At t % 8 = 7 that
  is the whole sum, and it is what is written to block (t/32, (t/8)%4) of the result.  Those blocks cover the
  result array: entry (a, b) lies in the block of the point (a / 512, b / 1024, 7).
-/
import proofs.«124659_j42116449305198_1_alg».proof.Proof.KI.Region1Base
import proofs.«124659_j42116449305198_1_alg».proof.Proof.KI.MatmulPure
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section Region1Value
variable (V : (c : Dev nD) → (b : Ref sig .tc) → Buf (Elt Ideal) ((c : Thread nD τ).loc b))

/-! ## Where each window's block sits, decided once over the 512 points -/

theorem idx1_0 : ∀ t : Fin cfg1.N, win1_0.index t 0 = t.val / 32 ∧ win1_0.index t 1 = t.val % 8 :=
  (by decide +kernel : ∀ t : Fin grid1.N, win1_0.index t 0 = t.val / 32 ∧ win1_0.index t 1 = t.val % 8)
theorem idx1_1 : ∀ t : Fin cfg1.N, win1_1.index t 0 = t.val % 8 ∧ win1_1.index t 1 = (t.val / 8) % 4 :=
  (by decide +kernel : ∀ t : Fin grid1.N, win1_1.index t 0 = t.val % 8 ∧ win1_1.index t 1 = (t.val / 8) % 4)
theorem idx1_2 : ∀ t : Fin cfg1.N, win1_2.index t 0 = t.val % 8 ∧ win1_2.index t 1 = 0 :=
  (by decide +kernel : ∀ t : Fin grid1.N, win1_2.index t 0 = t.val % 8 ∧ win1_2.index t 1 = 0)
theorem idx1_3 : ∀ t : Fin cfg1.N, win1_3.index t 0 = t.val / 32 ∧ win1_3.index t 1 = (t.val / 8) % 4 :=
  (by decide +kernel : ∀ t : Fin grid1.N, win1_3.index t 0 = t.val / 32 ∧ win1_3.index t 1 = (t.val / 8) % 4)
theorem xsize1_3 : ∀ t : Fin cfg1.N, win1_3.xsize (grid1.coords t) 0 = 512 ∧ win1_3.xsize (grid1.coords t) 1 = 1024 :=
  (by decide +kernel : ∀ t : Fin grid1.N, win1_3.xsize (grid1.coords t) 0 = 512 ∧ win1_3.xsize (grid1.coords t) 1 = 1024)

/-! ## The input blocks at a point, as entries of the arrays -/

/-- The similarity block of point t: rows 512·(t/32) + p, columns 1024·(t%8) + kk. -/
theorem iblk1_0_apply (c : Dev nD) (t : Fin cfg1.N) (p : Fin 512) (kk : Fin 1024) (u k : Fin 8192)
    (hu : u.val = 512 * (t.val / 32) + p.val) (hk : k.val = 1024 * (t.val % 8) + kk.val) :
    (iblk1 V c 0 t : Vec Ideal S512x1024 .f32) (ix2 p kk) = (V c main_arg3 : S8192x8192.Idx → EReal) (ix2 u k) := by
  have hi := idx1_0 t
  unfold iblk1
  rw [View.read_apply]
  show V c main_arg3 _ = V c main_arg3 _
  congr 1
  funext a
  apply Fin.ext
  match a with
  | ⟨0, _⟩ => show win1_0.index t 0 * 512 + 1 * p.val = u.val; rw [hi.1, hu]; omega
  | ⟨1, _⟩ => show win1_0.index t 1 * 1024 + 1 * kk.val = k.val; rw [hi.2, hk]; omega

/-- The rating block of point t: rows 1024·(t%8) + kk, columns 1024·((t/8)%4) + q. -/
theorem iblk1_1_apply (c : Dev nD) (t : Fin cfg1.N) (kk q : Fin 1024) (k : Fin 8192) (i : Fin 4096)
    (hk : k.val = 1024 * (t.val % 8) + kk.val) (hi' : i.val = 1024 * ((t.val / 8) % 4) + q.val) :
    (iblk1 V c 1 t : Vec Ideal S1024x1024 .f32) (ix2 kk q) = (V c main_arg2 : S8192x4096.Idx → EReal) (ix2 k i) := by
  have hi := idx1_1 t
  unfold iblk1
  rw [View.read_apply]
  show V c main_arg2 _ = V c main_arg2 _
  congr 1
  funext a
  apply Fin.ext
  match a with
  | ⟨0, _⟩ => show win1_1.index t 0 * 1024 + 1 * kk.val = k.val; rw [hi.1, hk]; omega
  | ⟨1, _⟩ => show win1_1.index t 1 * 1024 + 1 * q.val = i.val; rw [hi.2, hi']; omega

/-- The block of means of point t: rows 1024·(t%8) + kk of the one column. -/
theorem iblk1_2_apply (c : Dev nD) (t : Fin cfg1.N) (kk : Fin 1024) (k : Fin 8192)
    (hk : k.val = 1024 * (t.val % 8) + kk.val) :
    (iblk1 V c 2 t : Vec Ideal S1024x1 .f32) (ix2 kk (0 : Fin 1)) = (V c main_v0 : S8192x1.Idx → EReal) (ix2 k (0 : Fin 1)) := by
  have hi := idx1_2 t
  unfold iblk1
  rw [View.read_apply]
  show V c main_v0 _ = V c main_v0 _
  congr 1
  funext a
  apply Fin.ext
  match a with
  | ⟨0, _⟩ => show win1_2.index t 0 * 1024 + 1 * kk.val = k.val; rw [hi.1, hk]; omega
  | ⟨1, _⟩ => show win1_2.index t 1 * 1 + 1 * 0 = 0; rw [hi.2]

/-- The block product of point t at (p, q) is the block of terms 1024·(t%8), …, 1024·(t%8) + 1023 of the sum for
    user u = 512·(t/32) + p and item i = 1024·((t/8)%4) + q. -/
theorem blk_sum1 (c : Dev nD) (t : Fin cfg1.N) (p : Fin 512) (q : Fin 1024) (u : Fin 8192) (i : Fin 4096)
    (hu : u.val = 512 * (t.val / 32) + p.val) (hi : i.val = 1024 * ((t.val / 8) % 4) + q.val)
    (x3 : Vec Ideal S512x1024 .f32) (x5 : Vec Ideal S1024x1024 .f32) (x6 : Vec Ideal S1024x1 .f32)
    (e3 : x3 = iblk1 V c 0 t) (e5 : x5 = iblk1 V c 1 t) (e6 : x6 = iblk1 V c 2 t) :
    ∑ kk : Fin 1024, x3 (ix2 p kk) * (x5 (ix2 kk q) - x6 (ix2 kk (0 : Fin 1)))
      = ∑ x ∈ Finset.range 1024, term (V c main_arg3) (V c main_arg2) (V c main_v0) u i (1024 * (t.val % 8) + x) := by
  subst e3 e5 e6
  exact block_sum (V c main_arg3) (V c main_arg2) (V c main_v0) u i (t.val % 8) (Nat.mod_lt _ (by decide))
    (iblk1 V c 0 t) (iblk1 V c 1 t) (iblk1 V c 2 t) p q
    (fun kk k hk => iblk1_0_apply V c t p kk u k hu hk)
    (fun kk k hk => iblk1_1_apply V c t kk q k i hk hi)
    (fun kk k hk => iblk1_2_apply V c t kk k hk)

/-! ## The accumulator after each point -/

/-- After point n the accumulator holds, at (p, q), the terms below 1024·(n%8 + 1) of the sum for user
    512·(n/32) + p and item 1024·((n/8)%4) + q. -/
theorem scratch_eq1 (c : Dev nD) : ∀ (n : ℕ) (h : n < cfg1.N) (p : Fin 512) (q : Fin 1024) (u : Fin 8192) (i : Fin 4096),
    u.val = 512 * (n / 32) + p.val → i.val = 1024 * ((n / 8) % 4) + q.val →
    (outsAt1 V c n h).2 (ix2 p q)
      = ∑ k ∈ Finset.range (1024 * (n % 8 + 1)), term (V c main_arg3) (V c main_arg2) (V c main_v0) u i k := by
  intro n
  induction n with
  | zero =>
    intro h p q u i hu hi
    refine (congrFun (scratch_first V c ⟨0, h⟩ rfl) (ix2 p q)).trans ?_
    refine (k1_pay2_apply (iblk1 V c 0 ⟨0, h⟩) (iblk1 V c 1 ⟨0, h⟩) (iblk1 V c 2 ⟨0, h⟩) (k1_pay1 (F := Ideal)) p q).trans ?_
    refine acc_step _ (0 % 8) _ _ ?_ (blk_sum1 V c ⟨0, h⟩ p q u i hu hi _ _ _ rfl rfl rfl)
    rw [k1_pay1_apply]; simp
  | succ n ih =>
    intro h p q u i hu hi
    have hN : cfg1.N = 512 := N_1
    by_cases h0 : (n + 1) % 8 = 0
    · refine (congrFun (scratch_first V c ⟨n + 1, h⟩ h0) (ix2 p q)).trans ?_
      refine (k1_pay2_apply (iblk1 V c 0 ⟨n + 1, h⟩) (iblk1 V c 1 ⟨n + 1, h⟩) (iblk1 V c 2 ⟨n + 1, h⟩) (k1_pay1 (F := Ideal)) p q).trans ?_
      refine acc_step _ ((n + 1) % 8) _ _ ?_ (blk_sum1 V c ⟨n + 1, h⟩ p q u i hu hi _ _ _ rfl rfl rfl)
      rw [k1_pay1_apply, h0]; simp
    · have hp : n < cfg1.N := by omega
      refine (congrFun (scratch_next V c ⟨n + 1, h⟩ h0 hp) (ix2 p q)).trans ?_
      refine (k1_pay2_apply (iblk1 V c 0 ⟨n + 1, h⟩) (iblk1 V c 1 ⟨n + 1, h⟩) (iblk1 V c 2 ⟨n + 1, h⟩) (outsAt1 V c n hp).2 p q).trans ?_
      refine acc_step _ ((n + 1) % 8) _ _ ?_ (blk_sum1 V c ⟨n + 1, h⟩ p q u i hu hi _ _ _ rfl rfl rfl)
      rw [ih hp p q u i (by omega) (by omega)]
      have e : (n + 1) % 8 = n % 8 + 1 := by omega
      rw [e]

/-! ## What the write-backs write, and the array they leave -/

/-- At a point whose last coordinate is 7 the accumulator holds the whole sums of its block. -/
theorem scratch_last1 (c : Dev nD) (t : Fin cfg1.N) (h7 : t.val % 8 = 7) (p : Fin 512) (q : Fin 1024) (u : Fin 8192)
    (i : Fin 4096) (hu : u.val = 512 * (t.val / 32) + p.val) (hi : i.val = 1024 * ((t.val / 8) % 4) + q.val) :
    (outsAt1 V c t.val t.isLt).2 (ix2 p q) = wsum (V c main_arg3) (V c main_arg2) (V c main_v0) u i := by
  rw [scratch_eq1 V c t.val t.isLt p q u i hu hi, wsum_eq_range, h7]

/-- The block a write-back writes is the block of the sums it covers. -/
theorem flushed_eq1 (c : Dev nD) (t : Fin cfg1.N) (hf : (cfg1.win 3).flush t = true) :
    (dat1 V c).flushed 3 t = ((cfg1.win 3).blk t).view.read (Elt Ideal)
      (fun j => wsum (V c main_arg3) (V c main_arg2) (V c main_v0) (j 0) (j 1)) := by
  have h7 : t.val % 8 = 7 := (flush1_3 t).mp hf
  have hi := idx1_3 t
  show (cfg1.win 3).cut (grid1.coords t) ((dat1 V c).after 3 t) = _
  rw [after1_3, out_last V c t h7]
  funext x
  rw [View.read_apply]
  have e := eq_ix2 (n0 := 512) (n1 := 1024) x
  refine (congrArg (outsAt1 V c t.val t.isLt).2 e).trans ?_
  refine scratch_last1 V c t h7 (x 0) (x 1) _ _ ?_ ?_
  · show win1_3.index t 0 * 512 + 1 * (x 0).val = _; rw [hi.1]; omega
  · show win1_3.index t 1 * 1024 + 1 * (x 1).val = _; rw [hi.2]; omega

/-- Every entry of the array lies in the block of a point that writes back: entry (a, b) in the block of the point
    with coordinates (a / 512, b / 1024, 7). -/
theorem cover1 (i : S8192x4096.Idx) :
    ∃ t : Fin cfg1.N, (cfg1.win 3).flush t = true ∧ i ∈ ((cfg1.win 3).blk t).view.set := by
  have hN : cfg1.N = 512 := N_1
  have h0 : (i 0).val < 8192 := (i 0).isLt
  have h1 : (i 1).val < 4096 := (i 1).isLt
  have ht : 32 * ((i 0).val / 512) + 8 * ((i 1).val / 1024) + 7 < cfg1.N := by omega
  refine ⟨⟨_, ht⟩, (flush1_3 _).mpr (by show (32 * ((i 0).val / 512) + 8 * ((i 1).val / 1024) + 7) % 8 = 7; omega), ?_⟩
  have hi := idx1_3 ⟨_, ht⟩
  have hx := xsize1_3 ⟨_, ht⟩
  show i ∈ ((View.whole main_v1).slice (win1_3.rect ⟨_, ht⟩)).set
  rw [View.set_slice_whole, Rect.mem_set_unit]
  intro a
  match a with
  | ⟨0, _⟩ =>
    show win1_3.index ⟨_, ht⟩ 0 * win1_3.size 0 ≤ (i 0 : Nat) ∧ (i 0 : Nat) < win1_3.index ⟨_, ht⟩ 0 * win1_3.size 0 + win1_3.xsize (grid1.coords ⟨_, ht⟩) 0
    rw [hi.1, hx.1, show win1_3.size 0 = 512 from rfl]
    dsimp only
    omega
  | ⟨1, _⟩ =>
    show win1_3.index ⟨_, ht⟩ 1 * win1_3.size 1 ≤ (i 1 : Nat) ∧ (i 1 : Nat) < win1_3.index ⟨_, ht⟩ 1 * win1_3.size 1 + win1_3.xsize (grid1.coords ⟨_, ht⟩) 1
    rw [hi.2, hx.2, show win1_3.size 1 = 1024 from rfl]
    dsimp only
    omega

/-- After the 512 points the array holds, at (u, i), the similarity-weighted sum of the centred ratings of item i. -/
theorem arr1 (c : Dev nD) : (dat1 (F := Ideal) V c).arrAt 3 cfg1.N
    = fun j => wsum (V c main_arg3) (V c main_arg2) (V c main_v0) (j 0) (j 1) :=
  (dat1 V c).arrAt_eq_of_cover 3 _ (flushed_eq1 V c) cover1

end Region1Value

end Cert.KernelIdeal.Hand

end
-- ==== Proof.KI.Value.lean ====
/-
  What the kernel's program computes, at the extended reals, as one function of its arguments.

  The first region leaves in its output column the mean of each user's nonzero ratings (`Spec.bf`); the second region
  reads that column, the rating matrix and the similarity matrix and leaves the similarity-weighted sums of the centred
  ratings (`Spec.S`); the host operations gather that matrix at each batch entry's (user, item) pair, add the biases and
  squash. `G` is that result as a function of the seven argument arrays; `result_eq` says the last contents of the
  result buffer are `G` of the launch memory's arguments.
-/
import proofs.«124659_j42116449305198_1_alg».proof.Proof.KI.Run
import proofs.«124659_j42116449305198_1_alg».proof.Proof.KI.Score
import proofs.«124659_j42116449305198_1_alg».proof.Proof.KI.G
import proofs.«124659_j42116449305198_1_alg».proof.Proof.KI.Region0Value
import proofs.«124659_j42116449305198_1_alg».proof.Proof.KI.Region1Value
import proofs.«124659_j42116449305198_1_alg».proof.Proof.Spec
import proofs.«124659_j42116449305198_1_alg».proof.Proof.Spec2

noncomputable section

namespace Cert.KernelIdeal.Hand

open Cert.KernelIdeal
open Idealize.ShloMosaic Idealize.ShloMosaic.TcCoe Idealize.ShloMosaic.ValueIdx Idealize.SL.Sem

variable (m : (ℓ : Loc nD τ sig) → Buf (Elt Ideal) ℓ)

/-! ## What each region finds and leaves -/

theorem V1_arg3 (c : Dev nD) : V1 m c main_arg3 = m ((c : Thread nD τ).loc main_arg3) :=
  (W1_of_ne m c main_arg3 (by decide)).trans rfl
theorem V1_arg2 (c : Dev nD) : V1 m c main_arg2 = m ((c : Thread nD τ).loc main_arg2) := W1_main_arg2 m c
/-- After the first region the bias column holds each user's mean nonzero rating. -/
theorem V1_v0 (c : Dev nD) : V1 m c main_v0 = fun j => Cert.Hand.Spec.bf (m ((c : Thread nD τ).loc main_arg2)) (j 0) :=
  (W1_arr m c 1).trans (arr0 (V0 m) c)

/-- After the second region the score matrix holds the similarity-weighted sums of the centred ratings. -/
theorem W2_v1 (c : Dev nD) : W2 m c (Proc.devRef .tc main_v1)
    = fun j => Cert.Hand.Spec.S (m ((c : Thread nD τ).loc main_arg3)) (m ((c : Thread nD τ).loc main_arg2)) (j 0) (j 1) := by
  refine (W2_arr m c 3).trans ((arr1 (V1 m) c).trans ?_)
  rw [V1_arg3, V1_arg2, V1_v0]
  rfl

/-! ## The buffers the host operations read -/

theorem W2_arg0 (c : Dev nD) : W2 m c (Proc.devRef .tc main_arg0) = m ((c : Thread nD τ).loc main_arg0) :=
  (W2_of_ne m c main_arg0 (by decide)).trans ((W1_of_ne m c main_arg0 (by decide)).trans rfl)
theorem W2_arg1 (c : Dev nD) : W2 m c (Proc.devRef .tc main_arg1) = m ((c : Thread nD τ).loc main_arg1) :=
  (W2_of_ne m c main_arg1 (by decide)).trans ((W1_of_ne m c main_arg1 (by decide)).trans rfl)
theorem W2_arg4 (c : Dev nD) : W2 m c (Proc.devRef .tc main_arg4) = m ((c : Thread nD τ).loc main_arg4) :=
  (W2_of_ne m c main_arg4 (by decide)).trans ((W1_of_ne m c main_arg4 (by decide)).trans rfl)
theorem W2_arg5 (c : Dev nD) : W2 m c (Proc.devRef .tc main_arg5) = m ((c : Thread nD τ).loc main_arg5) :=
  (W2_of_ne m c main_arg5 (by decide)).trans ((W1_of_ne m c main_arg5 (by decide)).trans rfl)
theorem W2_arg6 (c : Dev nD) : W2 m c (Proc.devRef .tc main_arg6) = m ((c : Thread nD τ).loc main_arg6) :=
  (W2_of_ne m c main_arg6 (by decide)).trans ((W1_of_ne m c main_arg6 (by decide)).trans rfl)

/-! ## The result -/

/-- The last contents of the result buffer are `G` of the arguments as launched. -/
theorem result_eq (c : Dev nD) : W3 m c (Proc.devRef .tc main_v41)
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (tail_eq (F := Ideal) (W2 m c)).trans ?_
  rw [W2_v1, W2_arg0, W2_arg1, W2_arg4, W2_arg5, W2_arg6]
  unfold G
  refine congrArg (squash (F := Ideal)) (congrArg (fun s => addf (F := Ideal) (φ := .f32) s _) ?_)
  funext i
  obtain ⟨b, rfl⟩ : ∃ b : Fin 8192, i = ix1 b := ⟨i 0, eq_ix1 i⟩
  exact scoreOf_apply _ _ _ b

/-- The kernel's program runs to the end with the result at `G` of the arguments and the arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v41)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v41 (by decide))).trans (result_eq m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run_all m ρ)

end Cert.KernelIdeal.Hand

end
-- ==== Proof.Ref.IntCount.lean ====
/-
  The reference's corrected user bias, read at one user.

  The reference counts a user's nonzero ratings with 32-bit integers: each rating is compared with zero, the one-bit
  answer is widened to a word, and the words of the row are added.  A row has 4096 entries, so the sum of these zeros
  and ones never wraps: read as a signed integer it is the number n of nonzero ratings.  Converted to an extended real
  it is n exactly; it is above zero as a signed word exactly when 0 < n; and the signed maximum with one is max n 1.
  The row sum of the ratings is the exact sum.  So the selected quotient is the mean of the nonzero ratings of
  proof/Proof/Spec.lean, and zero for a user who rated nothing.
-/
import proofs.«124659_j42116449305198_1_alg».proof.ReferenceIdeal
import proofs.«124659_j42116449305198_1_alg».proof.Proof.Gen.ReferenceIdeal
import proofs.«124659_j42116449305198_1_alg».proof.Proof.Spec
import Idealize.ShloMosaic.Lib.IndicatorCount
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx

/-! ## Words that are small naturals -/

/-- A 32-bit word that is a natural below 2^31 reads, signed, as that natural. -/
theorem toInt_ofNat_small (n : ℕ) (hn : n < 2 ^ 31) : (BitVec.ofNat 32 n).toInt = (n : Int) := by
  have hm : (BitVec.ofNat 32 n).toNat = n := by
    rw [BitVec.toNat_ofNat]; exact Nat.mod_eq_of_lt (by omega)
  rw [BitVec.toInt_eq_toNat_of_lt (by rw [hm]; omega), hm]

/-- Such a word is above zero, as a signed comparison, exactly when the natural is positive. -/
theorem cmpi_sgt_zero (n : ℕ) (hn : n < 2 ^ 31) :
    IntOp.cmpi .sgt (BitVec.ofNat 32 n) 0#32 = BitVec.ofBool (decide (0 < n)) := by
  simp only [IntOp.cmpi, BitVec.slt, toInt_ofNat_small n hn]
  congr 1
  have h0 : (0#32 : BitVec 32).toInt = 0 := by decide
  rw [h0]
  simp

/-- The signed maximum of such a word and one reads, signed, as the maximum of the natural and one. -/
theorem maxsi_one_toInt (n : ℕ) (hn : n < 2 ^ 31) :
    (IntOp.maxsi (BitVec.ofNat 32 n) 1#32).toInt = ((max n 1 : ℕ) : Int) := by
  have h1 : (1#32 : BitVec 32).toInt = 1 := by decide
  simp only [IntOp.maxsi, BitVec.slt, toInt_ofNat_small n hn, h1, decide_eq_true_eq]
  split_ifs with h
  · rw [toInt_ofNat_small n hn]; omega
  · rw [h1]; omega

/-! ## A sum of ones and zeros of extended reals is a count -/

/-- Over a finite set, the sum of one where a property holds and zero elsewhere is the number of members that have it. -/
theorem sum_indicator {ι : Type} (S : Finset ι) (p : ι → Prop) [DecidablePred p] :
    ∑ i ∈ S, (if p i then (1 : EReal) else 0) = (((S.filter p).card : ℝ) : EReal) := by
  classical
  induction S using Finset.induction_on with
  | empty => simp
  | insert a S ha ih =>
    rw [Finset.sum_insert ha, ih, Finset.filter_insert]
    by_cases h : p a
    · rw [if_pos h, if_pos h, Finset.card_insert_of_notMem (fun hm => ha (Finset.mem_filter.1 hm).1)]
      rw [Nat.cast_add, Nat.cast_one, EReal.coe_add, EReal.coe_one, add_comm]
    · rw [if_neg h, if_neg h, zero_add]

/-- "Not equal to zero", as the one-bit answer of the comparison, is one exactly when the extended real is not zero. -/
theorem cmp_une_zero_eq_one (a : EReal) : Ideal.cmp .une a 0 = 1#1 ↔ a ≠ 0 := by
  unfold Ideal.cmp
  by_cases h : a = 0 <;> simp [h]

/-! ## The reference's terms -/

/-- The count of a user's nonzero ratings as the reference computes it: a row sum of 32-bit words, each the widened
    answer of "this rating is not zero". -/
abbrev cntI (x : (⟨S8192x4096, .f32⟩ : BufTy).Contents (Elt Ideal)) : (⟨S8192, .i32⟩ : BufTy).Contents (Elt Ideal) :=
  Host.reduce IntOp.addi
    (extui 32 (cmpf (F := Ideal) .une x (broadcastInDim S8192x4096 ![] bcast_S_S8192x4096 (constant (F := Ideal) S_ .f32 0x00000000#32))) natLt_1_32)
    (constantI S_ 32 0#32) reducesTo_S8192x4096_S8192_d1 h_S_

/-- The row sum of a user's ratings as the reference computes it. -/
abbrev rsumF (x : (⟨S8192x4096, .f32⟩ : BufTy).Contents (Elt Ideal)) : (⟨S8192, .f32⟩ : BufTy).Contents (Elt Ideal) :=
  Host.reduceAdd (F := Ideal) x (constant (F := Ideal) S_ .f32 0x00000000#32) reducesTo_S8192x4096_S8192_d1 h_S_

/-- The reference's corrected user bias: where the count is above zero, the row sum divided by the count (at least
    one) converted to a float; elsewhere zero. -/
abbrev bfTerm (x : (⟨S8192x4096, .f32⟩ : BufTy).Contents (Elt Ideal)) : (⟨S8192, .f32⟩ : BufTy).Contents (Elt Ideal) :=
  select (cmpi .sgt (cntI x) (broadcastInDim S8192 ![] bcast_S_S8192 (constantI S_ 32 0#32)))
    (Host.divf (F := Ideal) (rsumF x) (sitofp (F := Ideal) .f32 (maxsi (cntI x) (broadcastInDim S8192 ![] bcast_S_S8192 (constantI S_ 32 1#32)))))
    (broadcastInDim S8192 ![] bcast_S_S8192 (id (constant (F := Ideal) S_ .f32 0x00000000#32)))

/-- The shape fact of the row reduction, in the form that names the source index over a result index. -/
theorem reduces_rows : S8192x4096.Reduces [1] S8192 := by decide

/-- The reduced axis has 4096 coordinates. -/
theorem size_rows : S8192x4096.size 1 = 4096 := rfl

/-- The source index over user u with item k inserted is (u, k). -/
theorem lift_rows (u : Fin 8192) (k : Fin (S8192x4096.size 1)) :
    reduces_rows.lift (ix1 u) k = ix2 u (Fin.cast size_rows k) :=
  funext fun a => Fin.ext (by match a with | ⟨0, _⟩ => rfl | ⟨1, _⟩ => rfl)

/-- How many ratings of user u are nonzero, as a natural number. -/
def nnz (x : (⟨S8192x4096, .f32⟩ : BufTy).Contents (Elt Ideal)) (u : Fin 8192) : ℕ :=
  (Finset.univ.filter fun k : Fin 4096 => x (ix2 u k) ≠ 0).card

/-- A row has 4096 entries, so the count is far below 2^31. -/
theorem nnz_lt (x : (⟨S8192x4096, .f32⟩ : BufTy).Contents (Elt Ideal)) (u : Fin 8192) : nnz x u < 2 ^ 31 := by
  have h : nnz x u ≤ 4096 := (Finset.card_filter_le _ _).trans (by simp)
  omega

/-- The reference's 32-bit count is that natural, as a word: the sum of at most 4096 ones does not wrap. -/
theorem cntI_apply (x : (⟨S8192x4096, .f32⟩ : BufTy).Contents (Elt Ideal)) (u : Fin 8192) :
    cntI x (ix1 u) = BitVec.ofNat 32 (nnz x u) := by
  show Host.reduce IntOp.addi _ _ reducesTo_S8192x4096_S8192_d1 h_S_ (ix1 u) = _
  rw [Host.reduce_eq_fold_single IntOp.addi _ _ reducesTo_S8192x4096_S8192_d1 reduces_rows h_S_ (ix1 u)]
  show (Finset.univ : Finset (Fin (S8192x4096.size 1))).fold IntOp.addi (0#32)
      (fun k => (Ideal.cmp .une (x (reduces_rows.lift (ix1 u) k)) (Ideal.ofBits .f32 0x00000000#32)).setWidth 32) = _
  simp only [lift_rows, Ideal.ofBits_zero_f32]
  rw [IndicatorCount.fold_addi_setWidth_eq_card
    (fun k : Fin (S8192x4096.size 1) => Ideal.cmp .une (x (ix2 u (Fin.cast size_rows k))) 0)]
  unfold nnz
  congr 1
  refine Finset.card_equiv (finCongr size_rows) fun k => ?_
  simp only [Finset.mem_filter, Finset.mem_univ, true_and, finCongr_apply]
  exact cmp_une_zero_eq_one _

/-- The reference's row sum is the specification's. -/
theorem rsumF_apply (x : (⟨S8192x4096, .f32⟩ : BufTy).Contents (Elt Ideal)) (u : Fin 8192) :
    rsumF x (ix1 u) = Cert.Hand.Spec.rsum x u := by
  show Ideal.hostReduceAdd reducesTo_S8192x4096_S8192_d1 x (Ideal.ofBits .f32 0x00000000#32) (ix1 u) = _
  rw [Ideal.hostReduceAdd_single reducesTo_S8192x4096_S8192_d1 reduces_rows, Ideal.ofBits_zero_f32, zero_add]
  unfold Cert.Hand.Spec.rsum
  simp only [lift_rows]
  exact Fin.sum_congr' (fun i : Fin 4096 => x (ix2 u i)) size_rows

/-- The specification's count is that natural, as an extended real. -/
theorem spec_cnt_eq (x : (⟨S8192x4096, .f32⟩ : BufTy).Contents (Elt Ideal)) (u : Fin 8192) :
    Cert.Hand.Spec.cnt x u = ((nnz x u : ℝ) : EReal) := by
  unfold Cert.Hand.Spec.cnt Cert.Hand.Spec.nz nnz
  exact sum_indicator Finset.univ fun k : Fin 4096 => x (ix2 u k) ≠ 0

/-- At every user the reference's corrected bias is the specification's. -/
theorem ref_bf (x : (⟨S8192x4096, .f32⟩ : BufTy).Contents (Elt Ideal)) (u : Fin 8192) :
    bfTerm x (ix1 u) = Cert.Hand.Spec.bf x u := by
  have hn := nnz_lt x u
  show Scalar.select (IntOp.cmpi .sgt (cntI x (ix1 u)) 0#32)
      (Ideal.div (rsumF x (ix1 u)) (((IntOp.maxsi (cntI x (ix1 u)) 1#32).toInt : ℝ) : EReal))
      (Ideal.ofBits .f32 0x00000000#32) = _
  rw [cntI_apply, rsumF_apply, cmpi_sgt_zero _ hn, maxsi_one_toInt _ hn, Ideal.ofBits_zero_f32]
  unfold Cert.Hand.Spec.bf
  rw [spec_cnt_eq]
  have hmax : max ((nnz x u : ℝ) : EReal) 1 = (((max (nnz x u) 1 : ℕ) : Int) : ℝ) := by
    rw [Int.cast_natCast, Nat.cast_max, Nat.cast_one, EReal.coe_strictMono.monotone.map_max, EReal.coe_one]
  rw [hmax]
  by_cases h : 0 < nnz x u
  · have h' : (0 : EReal) < ((nnz x u : ℝ) : EReal) := by exact_mod_cast h
    rw [if_pos h']
    simp [Scalar.select, h]
  · have h' : ¬ (0 : EReal) < ((nnz x u : ℝ) : EReal) := by
      intro hc; exact h (by exact_mod_cast hc)
    rw [if_neg h']
    simp [Scalar.select, h]

end Cert.ReferenceIdeal.RefValue

end
-- ==== Proof.LibGatherRowCol.lean ====
/-
  Gathers of whole rows and of whole columns of a matrix at a vector of start indices.

  A row gather takes a matrix of N rows and K columns and R start indices (an R-by-1 array) and returns the R-by-K
  matrix whose row r is the row of the operand named by start index r.  A column gather takes a matrix of K rows
  and M columns and R start indices and returns the K-by-R matrix whose column r is the column of the operand named
  by start index r.  In both a start index is read as a signed integer and clamped into its axis: a slice of one
  row (or column) may start anywhere from 0 to the last position.
-/
import Idealize.ShloMosaic.PureOps
import Idealize.ShloMosaic.Lib.ValueIdx

noncomputable section

namespace Cert.LibGatherRowCol

open Idealize.ShloMosaic Idealize.ShloMosaic.ValueIdx

variable {α : Type}

/-- Every axis of a matrix is axis 0 or axis 1. -/
theorem fin2_cases (a : Fin 2) : a = 0 ∨ a = 1 := by
  rcases a with ⟨v, hv⟩
  have hv2 : v < 2 := hv
  interval_cases v
  · exact Or.inl rfl
  · exact Or.inr rfl

/-! ## Rows -/

/-- The dimension numbers of a gather of whole rows out of an N-by-K matrix at R start indices. -/
def rowDims (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- The row gather read at (r, k): the matrix at the row start index r names, read signed and clamped, and column k. -/
theorem gather_row_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowDims N K R wf) x idx (ix2 r k)
      = x (ix2 ⟨min (idx (ix2 r (0 : Fin 1))).toInt.toNat (N - 1), by omega⟩ k) := by
  unfold Host.gather
  congr 1
  funext a
  refine Fin.ext ?_
  show (rowDims N K R wf).start (ix2 r k) idx a + (rowDims N K R wf).batchCoord (ix2 r k) a
      + (rowDims N K R wf).offCoord (ix2 r k) a = _
  rcases fin2_cases a with rfl | rfl
  · -- the row axis: the clamped start index, nothing added
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (0 : Fin 2) ∈ (rowDims N K R wf).startIndexMap from List.mem_cons_self)]
    have hsi : (rowDims N K R wf).siIdx (ix2 r k) ⟨List.idxOf (0 : Fin 2) (rowDims N K R wf).startIndexMap,
        List.idxOf_lt_length_iff.2 List.mem_cons_self⟩ = ix2 r (0 : Fin 1) := by
      funext b; refine Fin.ext ?_
      match b with
      | ⟨0, _⟩ => rfl
      | ⟨1, _⟩ => rfl
    rw [hsi]
    rfl
  · -- the column axis: the slice starts at 0 and the result's column is the offset
    have hnot : (1 : Fin 2) ∉ (rowDims N K R wf).startIndexMap := by
      show (1 : Fin 2) ∉ [(0 : Fin 2)]
      decide
    have hkept : (1 : Fin 2) ∈ (rowDims N K R wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg hnot, dif_pos hkept]
    simp only [Nat.add_zero, Nat.zero_add]
    rfl

/-! ## Columns -/

/-- The dimension numbers of a gather of whole columns out of a K-by-M matrix at R start indices. -/
def colDims (K M R : Nat) (wf : GatherDims.WF ⟨2, ![K, M]⟩ ⟨2, ![R, 1]⟩ ⟨2, ![K, R]⟩ [0] [1] [] [1] [] 1 ![K, 1]) :
    GatherDims ⟨2, ![K, M]⟩ ⟨2, ![R, 1]⟩ ⟨2, ![K, R]⟩ where
  offsetDims := [0]
  collapsedSliceDims := [1]
  operandBatchingDims := []
  startIndicesBatchingDims := []
  startIndexMap := [1]
  indexVectorDim := 1
  sliceSizes := ![K, 1]
  wf := wf

/-- The column gather read at (k, r): the matrix at row k and the column start index r names, read signed and clamped. -/
theorem gather_col_apply {K M R w : Nat} (hM : 0 < M)
    (wf : GatherDims.WF ⟨2, ![K, M]⟩ ⟨2, ![R, 1]⟩ ⟨2, ![K, R]⟩ [0] [1] [] [1] [] 1 ![K, 1])
    (x : (⟨2, ![K, M]⟩ : Shape).Idx → α) (idx : IVec ⟨2, ![R, 1]⟩ w) (k : Fin K) (r : Fin R) :
    Host.gather (colDims K M R wf) x idx (ix2 k r)
      = x (ix2 k ⟨min (idx (ix2 r (0 : Fin 1))).toInt.toNat (M - 1), by omega⟩) := by
  unfold Host.gather
  congr 1
  funext a
  refine Fin.ext ?_
  show (colDims K M R wf).start (ix2 k r) idx a + (colDims K M R wf).batchCoord (ix2 k r) a
      + (colDims K M R wf).offCoord (ix2 k r) a = _
  rcases fin2_cases a with rfl | rfl
  · -- the row axis: the slice starts at 0 and the result's row is the offset
    have hnot : (0 : Fin 2) ∉ (colDims K M R wf).startIndexMap := by
      show (0 : Fin 2) ∉ [(1 : Fin 2)]
      decide
    have hkept : (0 : Fin 2) ∈ (colDims K M R wf).sKept :=
      (GatherDims.mem_sKept _ _).mpr ⟨by show (0 : Fin 2) ∉ [(1 : Fin 2)]; decide, List.not_mem_nil⟩
    rw [GatherDims.batchCoord_eq_zero _ _ _ List.not_mem_nil]
    unfold GatherDims.start GatherDims.offCoord
    rw [dif_neg hnot, dif_pos hkept]
    simp only [Nat.add_zero, Nat.zero_add]
    rfl
  · -- the column axis: the clamped start index, nothing added
    rw [GatherDims.batchCoord_eq_zero _ _ _ List.not_mem_nil,
      GatherDims.offCoord_eq_zero _ _ _ (fun h => ((GatherDims.mem_sKept _ _).mp h).1 List.mem_cons_self)]
    simp only [Nat.add_zero]
    unfold GatherDims.start
    rw [dif_pos (show (1 : Fin 2) ∈ (colDims K M R wf).startIndexMap from List.mem_cons_self)]
    have hsi : (colDims K M R wf).siIdx (ix2 k r) ⟨List.idxOf (1 : Fin 2) (colDims K M R wf).startIndexMap,
        List.idxOf_lt_length_iff.2 List.mem_cons_self⟩ = ix2 r (0 : Fin 1) := by
      funext b; refine Fin.ext ?_
      match b with
      | ⟨0, _⟩ => rfl
      | ⟨1, _⟩ => rfl
    rw [hsi]
    rfl

end Cert.LibGatherRowCol

end
-- ==== Proof.Ref.RefScore.lean ====
/-
  The reference's similarity score, read at one batch entry.

  For batch entry b the reference gathers the row of the similarity matrix that the (wrapped) user index names and the
  column of the centred rating matrix that the (wrapped) item index names, a start index being read signed and clamped
  into its axis; it transposes the gathered columns, multiplies the two 8192-by-8192 arrays entry by entry and adds each
  row from zero.  At b this is the sum over users k of the similarity of the row read to user k times the rating of
  user k for the column read, less user k's corrected bias, which is the specification's (the module before this one).
-/
import proofs.«124659_j42116449305198_1_alg».proof.Proof.Ref.ReadP
import proofs.«124659_j42116449305198_1_alg».proof.Proof.Ref.IntCount
import proofs.«124659_j42116449305198_1_alg».proof.Proof.Spec2
import proofs.«124659_j42116449305198_1_alg».proof.Proof.LibGatherRowCol

noncomputable section

namespace Cert.ReferenceIdeal.RefValue

open Cert.ReferenceIdeal Cert.ReferenceIdeal.Gen Idealize.ShloMosaic Idealize.ShloMosaic.ValueIdx

/-- The centred rating of user k for item c: the rating less the user's corrected bias (two broadcasts of the bias
    column, then a subtraction). -/
theorem v14_at (x2 : (⟨S8192x4096, .f32⟩ : BufTy).Contents (Elt Ideal)) (k : Fin 8192) (c : Fin 4096) :
    ReadP.val_main_v14 (F := Ideal) x2 (ix2 k c) = x2 (ix2 k c) - Cert.Hand.Spec.bf x2 k := by
  refine (ReadP.val_main_v14_apply x2 (ix2 k c)).trans ?_
  show x2 (ix2 k c) - ReadP.val_main_v13 (F := Ideal) x2 (ix2 k c) = _
  refine congrArg (x2 (ix2 k c) - ·) ?_
  refine (ReadP.val_main_v13_apply x2 (ix2 k c)).trans ?_
  refine (ReadP.val_main_v12_apply x2 _).trans ?_
  have hidx : ReadP.idx_main_v12 (ReadP.idx_main_v13 (ix2 k c)) = ix1 k :=
    funext fun a => Fin.ext (by match a with | ⟨0, _⟩ => rfl)
  exact (congrArg (ReadP.val_main_v11 (F := Ideal) x2) hidx).trans (ref_bf x2 k)

/-- The start index of batch entry b in the user gather is the wrapped user index of b. -/
theorem v20_at (x0 : (⟨S8192, .i32⟩ : BufTy).Contents (Elt Ideal)) (b : Fin 8192) :
    ReadP.val_main_v20 (F := Ideal) x0 (ix2 b (0 : Fin 1)) = ReadP.val_main_v19 (F := Ideal) x0 (ix1 b) := by
  refine (ReadP.val_main_v20_apply x0 _).trans ?_
  exact congrArg (ReadP.val_main_v19 (F := Ideal) x0) (funext fun a => Fin.ext (by match a with | ⟨0, _⟩ => rfl))

/-- The start index of batch entry b in the item gather is the wrapped item index of b. -/
theorem v27_at (x1 : (⟨S8192, .i32⟩ : BufTy).Contents (Elt Ideal)) (b : Fin 8192) :
    ReadP.val_main_v27 (F := Ideal) x1 (ix2 b (0 : Fin 1)) = ReadP.val_main_v26 (F := Ideal) x1 (ix1 b) := by
  refine (ReadP.val_main_v27_apply x1 _).trans ?_
  exact congrArg (ReadP.val_main_v26 (F := Ideal) x1) (funext fun a => Fin.ext (by match a with | ⟨0, _⟩ => rfl))

/-- The gathered similarity row of batch entry b, at user k: the similarity matrix at the row read and column k. -/
theorem v21_at (x0 : (⟨S8192, .i32⟩ : BufTy).Contents (Elt Ideal)) (x3 : (⟨S8192x8192, .f32⟩ : BufTy).Contents (Elt Ideal))
    (b k : Fin 8192) :
    ReadP.val_main_v21 (F := Ideal) x0 x3 (ix2 b k)
      = x3 (ix2 (Cert.Hand.Spec.cu (ReadP.val_main_v19 (F := Ideal) x0) b) k) := by
  have hd : gather_S8192x8192_S8192x1_S8192x8192_1_0_n_n_0_1_18192
      = Cert.LibGatherRowCol.rowDims 8192 8192 8192 gather_S8192x8192_S8192x1_S8192x8192_1_0_n_n_0_1_18192_wf := rfl
  show Host.gather gather_S8192x8192_S8192x1_S8192x8192_1_0_n_n_0_1_18192 x3 (ReadP.val_main_v20 (F := Ideal) x0) (ix2 b k) = _
  rw [hd]
  refine (Cert.LibGatherRowCol.gather_row_apply (by decide) _ x3 (ReadP.val_main_v20 (F := Ideal) x0) b k).trans ?_
  refine congrArg x3 (funext fun a => Fin.ext ?_)
  match a with
  | ⟨0, _⟩ =>
    show min (ReadP.val_main_v20 (F := Ideal) x0 (ix2 b (0 : Fin 1))).toInt.toNat (8192 - 1)
      = min (ReadP.val_main_v19 (F := Ideal) x0 (ix1 b)).toInt.toNat (8192 - 1)
    rw [v20_at]
  | ⟨1, _⟩ => rfl

/-- The gathered and transposed column of batch entry b, at user k: the centred rating of user k for the column read. -/
theorem v29_at (x1 : (⟨S8192, .i32⟩ : BufTy).Contents (Elt Ideal)) (x2 : (⟨S8192x4096, .f32⟩ : BufTy).Contents (Elt Ideal))
    (b k : Fin 8192) :
    ReadP.val_main_v29 (F := Ideal) x1 x2 (ix2 b k)
      = x2 (ix2 k (Cert.Hand.Spec.ci (ReadP.val_main_v26 (F := Ideal) x1) b)) - Cert.Hand.Spec.bf x2 k := by
  refine (ReadP.val_main_v29_apply x1 x2 (ix2 b k)).trans ?_
  have hidx : ReadP.idx_main_v29 (ix2 b k) = ix2 k b :=
    funext fun a => Fin.ext (by match a with | ⟨0, _⟩ => rfl | ⟨1, _⟩ => rfl)
  rw [hidx]
  have hd : gather_S8192x4096_S8192x1_S8192x8192_0_1_n_n_1_1_81921
      = Cert.LibGatherRowCol.colDims 8192 4096 8192 gather_S8192x4096_S8192x1_S8192x8192_0_1_n_n_1_1_81921_wf := rfl
  show Host.gather gather_S8192x4096_S8192x1_S8192x8192_0_1_n_n_1_1_81921 (ReadP.val_main_v14 (F := Ideal) x2)
      (ReadP.val_main_v27 (F := Ideal) x1) (ix2 k b) = _
  rw [hd]
  refine (Cert.LibGatherRowCol.gather_col_apply (by decide) _ (ReadP.val_main_v14 (F := Ideal) x2)
    (ReadP.val_main_v27 (F := Ideal) x1) k b).trans ?_
  refine Eq.trans ?_ (v14_at x2 k (Cert.Hand.Spec.ci (ReadP.val_main_v26 (F := Ideal) x1) b))
  refine congrArg (ReadP.val_main_v14 (F := Ideal) x2) (funext fun a => Fin.ext ?_)
  match a with
  | ⟨0, _⟩ => rfl
  | ⟨1, _⟩ =>
    show min (ReadP.val_main_v27 (F := Ideal) x1 (ix2 b (0 : Fin 1))).toInt.toNat (4096 - 1)
      = min (ReadP.val_main_v26 (F := Ideal) x1 (ix1 b)).toInt.toNat (4096 - 1)
    rw [v27_at]

/-- The reference's score of batch entry b: the similarity row read, against the centred ratings of the column read. -/
theorem ref_score (x0 x1 : (⟨S8192, .i32⟩ : BufTy).Contents (Elt Ideal)) (x2 : (⟨S8192x4096, .f32⟩ : BufTy).Contents (Elt Ideal))
    (x3 : (⟨S8192x8192, .f32⟩ : BufTy).Contents (Elt Ideal)) (b : Fin 8192) :
    ReadP.val_main_v31 (F := Ideal) x0 x1 x2 x3 (ix1 b)
      = ∑ k : Fin 8192, x3 (ix2 (Cert.Hand.Spec.cu (ReadP.val_main_v19 (F := Ideal) x0) b) k)
          * (x2 (ix2 k (Cert.Hand.Spec.ci (ReadP.val_main_v26 (F := Ideal) x1) b)) - Cert.Hand.Spec.bf x2 k) := by
  refine (ReadP.val_main_v31_apply x0 x1 x2 x3 (ix1 b)).trans ?_
  have h0 : ReadP.val_main_cst_8 (F := Ideal) (Shape.Idx.first h_S_) = 0 := Ideal.ofBits_zero_f32
  rw [h0, zero_add]
  refine Finset.sum_congr rfl fun k _ => ?_
  have hidx : ReadP.idx_main_v31 (ix1 b) k = ix2 b k :=
    funext fun a => Fin.ext (by match a with | ⟨0, _⟩ => rfl | ⟨1, _⟩ => rfl)
  rw [hidx]
  refine (ReadP.val_main_v30_apply x0 x1 x2 x3 (ix2 b k)).trans ?_
  show ReadP.val_main_v21 (F := Ideal) x0 x3 (ix2 b k) * ReadP.val_main_v29 (F := Ideal) x1 x2 (ix2 b k) = _
  rw [v21_at, v29_at]

end Cert.ReferenceIdeal.RefValue

end
-- ==== Proof.Ref.RefValue.lean ====
/-
  The reference's result, read as a sum over the users.

  The reference wraps each index (a negative index counts from the end), reads the row of the similarity matrix at the
  wrapped user index and the column of the centred ratings at the wrapped item index, multiplies them entry by entry and
  adds the products: its score for batch entry b is  Σ_k sim (cu b, k) · (r (k, ci b) − bf k),  where cu b and ci b are the
  row and the column the two reads land on and bf k is the mean of user k's nonzero ratings.  To the score it adds the
  bias term (the user's bias, the item's bias and the global bias) and passes the sum through the last five operations
  (negate, exponential, one plus, one over, times five).  The bias term and those five operations are the same on the
  kernel's side and are kept as they stand.
-/
import proofs.«124659_j42116449305198_1_alg».proof.Proof.Ref.ReadP
import proofs.«124659_j42116449305198_1_alg».proof.Proof.Ref.RefScore
import proofs.«124659_j42116449305198_1_alg».proof.Proof.Spec
import proofs.«124659_j42116449305198_1_alg».proof.Proof.Spec2

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- A vector with one entry per batch entry. -/
abbrev BVec (F : FTy → Type) [FloatOps F] : Type := (⟨S8192, .f32⟩ : BufTy).Contents (Elt F)
/-- A vector of index words, one per batch entry. -/
abbrev BIdx (F : FTy → Type) [FloatOps F] : Type := (⟨S8192, .i32⟩ : BufTy).Contents (Elt F)

/-- The user indices wrapped: a negative index has 8192 added. -/
def uWrap (x0 : BIdx F) : BIdx F := ReadP.val_main_v19 (F := F) x0
/-- The item indices wrapped: a negative index has 4096 added. -/
def iWrap (x1 : BIdx F) : BIdx F := ReadP.val_main_v26 (F := F) x1

/-- The reference's score: the row sums of the products of the gathered similarity rows and the gathered, transposed
    columns of the centred ratings. -/
def score (x0 x1 : BIdx F) (x2 : (⟨S8192x4096, .f32⟩ : BufTy).Contents (Elt F))
    (x3 : (⟨S8192x8192, .f32⟩ : BufTy).Contents (Elt F)) : BVec F :=
  ReadP.val_main_v31 (F := F) x0 x1 x2 x3

/-- The bias term: the user's bias plus the item's bias, plus the global bias. -/
def bias (x0 x1 : BIdx F) (x4 : (⟨S8192, .f32⟩ : BufTy).Contents (Elt F)) (x5 : (⟨S4096, .f32⟩ : BufTy).Contents (Elt F))
    (x6 : (⟨S_, .f32⟩ : BufTy).Contents (Elt F)) : BVec F :=
  ReadP.val_main_v48 (F := F) x0 x1 x4 x5 x6

/-- The last five operations: s ↦ 5 · (1 / (1 + exp (−s))), entry by entry. -/
def tail (s : BVec F) : BVec F :=
  mulf (Host.divf (ReadP.val_main_v54 (F := F)) (addf (ReadP.val_main_v52 (F := F)) (Host.exp (Host.negf s))))
    (ReadP.val_main_v56 (F := F))

/-- The reference's result is the last five operations applied to the score plus the bias term. -/
theorem result_eq (x0 x1 : BIdx F) (x2 : (⟨S8192x4096, .f32⟩ : BufTy).Contents (Elt F))
    (x3 : (⟨S8192x8192, .f32⟩ : BufTy).Contents (Elt F)) (x4 : (⟨S8192, .f32⟩ : BufTy).Contents (Elt F))
    (x5 : (⟨S4096, .f32⟩ : BufTy).Contents (Elt F)) (x6 : (⟨S_, .f32⟩ : BufTy).Contents (Elt F)) :
    ReadP.val_main_v57 (F := F) x0 x1 x2 x3 x4 x5 x6 = tail (addf (score x0 x1 x2 x3) (bias x0 x1 x4 x5 x6)) := rfl

/-- The score of batch entry b: the similarity row of the user it reads against the centred ratings column of the item
    it reads. -/
theorem score_apply (x0 x1 : BIdx Ideal) (x2 : (⟨S8192x4096, .f32⟩ : BufTy).Contents (Elt Ideal))
    (x3 : (⟨S8192x8192, .f32⟩ : BufTy).Contents (Elt Ideal)) (b : Fin 8192) :
    score (F := Ideal) x0 x1 x2 x3 (ix1 b)
      = ∑ k : Fin 8192, x3 (ix2 (Cert.Hand.Spec.cu (uWrap x0) b) k)
          * (x2 (ix2 k (Cert.Hand.Spec.ci (iWrap x1) b)) - Cert.Hand.Spec.bf x2 k) :=
  ref_score x0 x1 x2 x3 b

end Cert.ReferenceIdeal.RefValue

end
-- ==== Proof.Ref.Bridge.lean ====
import proofs.«124659_j42116449305198_1_alg».proof.Proof.Ref.RefValue
import proofs.«124659_j42116449305198_1_alg».proof.Proof.KI.G

/-!
  The reference's result as the same function of the seven arguments as the kernel program's.

  The reference ends with the same chain of operations as the kernel program: the two index vectors wrapped once when
  negative, the three bias terms gathered and added, the score added to them, and z ↦ 5 · 1 / (1 + exp (−z)) applied
  entry by entry.  Only the score itself is computed differently, and at every batch entry it is the
  similarity-weighted sum of the centred ratings that the specification names.
-/

noncomputable section

namespace Cert.ReferenceIdeal.RefValue

open Cert.ReferenceIdeal Idealize.ShloMosaic Idealize.ShloMosaic.ValueIdx

/-- The reference wraps a negative user index by the number of users, as the kernel program does. -/
theorem uWrap_eq (x0 : BIdx Ideal) : uWrap x0 = Cert.KernelIdeal.Hand.wrapU (F := Ideal) x0 := rfl

/-- The reference wraps a negative item index by the number of items, as the kernel program does. -/
theorem iWrap_eq (x1 : BIdx Ideal) : iWrap x1 = Cert.KernelIdeal.Hand.wrapI (F := Ideal) x1 := rfl

/-- The reference's bias term: the user's bias, the item's bias and the global bias, gathered at the wrapped indices
    and added in the same order as in the kernel program. -/
theorem bias_eq (x0 x1 : BIdx Ideal) (x4 : (⟨S8192, .f32⟩ : BufTy).Contents (Elt Ideal))
    (x5 : (⟨S4096, .f32⟩ : BufTy).Contents (Elt Ideal)) (x6 : (⟨S_, .f32⟩ : BufTy).Contents (Elt Ideal)) :
    bias x0 x1 x4 x5 x6 = Cert.KernelIdeal.Hand.biasOf (F := Ideal) x0 x1 x4 x5 x6 := rfl

/-- The reference's last five operations are the kernel program's z ↦ 5 · 1 / (1 + exp (−z)). -/
theorem tail_eq_squash (s : BVec Ideal) : tail s = Cert.KernelIdeal.Hand.squash (F := Ideal) s := rfl

/-- The reference's score is, entry by entry, the specification's similarity-weighted sum of centred ratings at the
    user row and the item column the entry's wrapped and clamped indices name. -/
theorem score_eq_S (x0 x1 : BIdx Ideal) (x2 : (⟨S8192x4096, .f32⟩ : BufTy).Contents (Elt Ideal))
    (x3 : (⟨S8192x8192, .f32⟩ : BufTy).Contents (Elt Ideal)) :
    score (F := Ideal) x0 x1 x2 x3
      = fun i => Cert.Hand.Spec.S x3 x2 (Cert.Hand.Spec.cu (Cert.KernelIdeal.Hand.wrapU (F := Ideal) x0) (i 0))
          (Cert.Hand.Spec.ci (Cert.KernelIdeal.Hand.wrapI (F := Ideal) x1) (i 0)) := by
  funext i
  obtain ⟨b, rfl⟩ : ∃ b : Fin 8192, i = ix1 b := ⟨i 0, eq_ix1 i⟩
  rw [score_apply, uWrap_eq, iWrap_eq]
  rfl

/-- The reference's result is the function G of the seven arguments. -/
theorem ref_G (x0 x1 : (⟨S8192, .i32⟩ : BufTy).Contents (Elt Ideal)) (x2 : (⟨S8192x4096, .f32⟩ : BufTy).Contents (Elt Ideal))
    (x3 : (⟨S8192x8192, .f32⟩ : BufTy).Contents (Elt Ideal)) (x4 : (⟨S8192, .f32⟩ : BufTy).Contents (Elt Ideal))
    (x5 : (⟨S4096, .f32⟩ : BufTy).Contents (Elt Ideal)) (x6 : (⟨S_, .f32⟩ : BufTy).Contents (Elt Ideal)) :
    ReadP.val_main_v57 (F := Ideal) x0 x1 x2 x3 x4 x5 x6 = Cert.KernelIdeal.Hand.G x0 x1 x2 x3 x4 x5 x6 := by
  rw [result_eq, tail_eq_squash, bias_eq, score_eq_S]
  rfl

end Cert.ReferenceIdeal.RefValue

end
-- ==== Proof.lean ====
/-
  The five claims of this certificate.

  The kernel computes, for a batch of (user, item) pairs, a rating 5 · 1 / (1 + exp (−(score + bias))) where
  score = Σ_k sim(user, k) · (rating(k, item) − mean k) and mean k is user k's mean NONZERO rating. It does so with two
  kernel regions — the row means, then a matrix product accumulated block by block over the contraction axis in a scratch
  buffer carried from one grid point to the next — and a point gather of the product at the batch's pairs. The reference gathers the similarity rows and the
  centred rating columns first and sums their products.

  Frames. Both printed forms of the kernel run the same three segments (two regions, then the host operations); the run
  reads back every buffer that outlives a region, and an argument is never written. The reference is host operations only:
  its frame is its run with the result dropped.

  Preserves. The idealization rewrote nothing.

  Algebraic. Over the extended reals both programs end with the result at one function `G` of the arguments: the kernel's
  regions leave `Spec.bf` and then `Spec.S` (the eight partial sums over blocks of the contraction axis are one sum:
  addition is commutative and associative, and nothing is distributed, so no entry needs to be finite), its gather reads
  S at the clamped pair; the reference's row and column gathers read the same row and column, its integer count of the
  nonzero ratings is the float count (at most 4096 ones), and the biases and the squashing are the same operations.
-/
import proofs.«124659_j42116449305198_1_alg».proof.Defs
import proofs.«124659_j42116449305198_1_alg».proof.Proof.Gen.Kernel
import proofs.«124659_j42116449305198_1_alg».proof.Proof.Gen.KernelIdeal
import proofs.«124659_j42116449305198_1_alg».proof.Proof.Gen.ReferenceIdeal
import proofs.«124659_j42116449305198_1_alg».proof.Proof.Gen.Pre_finite_inputs
import proofs.«124659_j42116449305198_1_alg».proof.Proof.K.Run
import proofs.«124659_j42116449305198_1_alg».proof.Proof.KI.Value
import proofs.«124659_j42116449305198_1_alg».proof.Proof.Ref.RunP
import proofs.«124659_j42116449305198_1_alg».proof.Proof.Ref.ReadP
import proofs.«124659_j42116449305198_1_alg».proof.Proof.Ref.Bridge

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at `G` of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.ReferenceIdeal.ReadP.val_main_v57_eq (F := Ideal) _ _ _ _ _ _ _).trans (Cert.ReferenceIdeal.RefValue.ref_G _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
